-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S128x32 : S_.BroadcastsInDim S128x32 (![] : Fin 0 → Fin S128x32.rank)
  reducesTo_S128x32_S_d0_1 : S128x32.ReducesTo [0, 1] S_
  bcast_S_S64x128 : S_.BroadcastsInDim S64x128 (![] : Fin 0 → Fin S64x128.rank)
  reducesTo_S64x128_S_d0_1 : S64x128.ReducesTo [0, 1] S_

variable [Facts]

def fn_part6 {F : FTy → Type} [FloatOps F] (main_v98 : IVec S_ 1) (main_v101 : IVec S64x128 1) (main_c_39 : IVec S_ 1) : IVec S_ 1 :=
  let main_v102 : IVec S_ 1 := (fun x v => Host.reduce IntOp.andi x v reducesTo_S64x128_S_d0_1 h_S_) main_v101 main_c_39
  let main_v103 : IVec S_ 1 := andi main_v98 main_v102
  main_v103

def fn_part5 {F : FTy → Type} [FloatOps F] (main_arg19 : FVec F S64x128 .f32) (main_arg20 : FVec F S64 .f32) (main_arg21 : FVec F S64x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S64x128 .f32 := Host.absf main_arg19
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x128 .f32 := Host.absf main_arg21
  let main_cst_38 : FVec F S_ .f32 := constant S_ .f32 0x7F800000#32
  let main_v100 : FVec F S64x128 .f32 := broadcastInDim S64x128 ![] bcast_S_S64x128 main_cst_38
  let main_v101 : IVec S64x128 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x32 .f32) (main_arg17 : FVec F S128x128 .f32) (main_arg18 : FVec F S128 .f32) (main_arg19 : FVec F S64x128 .f32) (main_arg20 : FVec F S64 .f32) (main_arg21 : FVec F S64x128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x32 .f32 := Host.absf main_arg16
  let main_cst_28 : FVec F S_ .f32 := constant S_ .f32 0x7F800000#32
  let main_v75 : FVec F S128x32 .f32 := broadcastInDim S128x32 ![] bcast_S_S128x32 main_cst_28
  let main_v76 : IVec S128x32 1 := cmpf .olt main_v74 main_v75
  let main_c_29 : IVec S_ 1 := constantI S_ 1 1#1
  let main_v77 : IVec S_ 1 := (fun x v => Host.reduce IntOp.andi x v reducesTo_S128x32_S_d0_1 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S32x32 .f32) (main_arg13 : FVec F S32 .f32) (main_arg14 : FVec F S128x32 .f32) (main_arg15 : FVec F S128 .f32) (main_arg16 : FVec F S128x32 .f32) (main_arg17 : FVec F S128x128 .f32) (main_arg18 : FVec F S128 .f32) (main_arg19 : FVec F S64x128 .f32) (main_arg20 : FVec F S64 .f32) (main_arg21 : FVec F S64x128 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S128x32 .f32 := Host.absf main_arg14
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128 .f32) (main_arg9 : FVec F S32x128 .f32) (main_arg10 : FVec F S32 .f32) (main_arg11 : FVec F S32x128 .f32) (main_arg12 : FVec F S32x32 .f32) (main_arg13 : FVec F S32 .f32) (main_arg14 : FVec F S128x32 .f32) (main_arg15 : FVec F S128 .f32) (main_arg16 : FVec F S128x32 .f32) (main_arg17 : FVec F S128x128 .f32) (main_arg18 : FVec F S128 .f32) (main_arg19 : FVec F S64x128 .f32) (main_arg20 : FVec F S64 .f32) (main_arg21 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg9
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x128 .f32 := Host.absf main_arg11
  let main_cst_18 : FVec F S_ .f32 := constant S_ .f32 0x7F800000#32
  let main_v50 : FVec F S32x128 .f32 := broadcastInDim S32x128 ![] bcast_S_S32x128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x64 .f32) (main_arg7 : FVec F S128x128 .f32) (main_arg8 : FVec F S128 .f32) (main_arg9 : FVec F S32x128 .f32) (main_arg10 : FVec F S32 .f32) (main_arg11 : FVec F S32x128 .f32) (main_arg12 : FVec F S32x32 .f32) (main_arg13 : FVec F S32 .f32) (main_arg14 : FVec F S128x32 .f32) (main_arg15 : FVec F S128 .f32) (main_arg16 : FVec F S128x32 .f32) (main_arg17 : FVec F S128x128 .f32) (main_arg18 : FVec F S128 .f32) (main_arg19 : FVec F S64x128 .f32) (main_arg20 : FVec F S64 .f32) (main_arg21 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1600000 32) (main_arg2 : FVec F S64x64 .f32) (main_arg3 : FVec F S64 .f32) (main_arg4 : FVec F S128x64 .f32) (main_arg5 : FVec F S128 .f32) (main_arg6 : FVec F S128x64 .f32) (main_arg7 : FVec F S128x128 .f32) (main_arg8 : FVec F S128 .f32) (main_arg9 : FVec F S32x128 .f32) (main_arg10 : FVec F S32 .f32) (main_arg11 : FVec F S32x128 .f32) (main_arg12 : FVec F S32x32 .f32) (main_arg13 : FVec F S32 .f32) (main_arg14 : FVec F S128x32 .f32) (main_arg15 : FVec F S128 .f32) (main_arg16 : FVec F S128x32 .f32) (main_arg17 : FVec F S128x128 .f32) (main_arg18 : FVec F S128 .f32) (main_arg19 : FVec F S64x128 .f32) (main_arg20 : FVec F S64 .f32) (main_arg21 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S64x128 : Shape := ⟨2, ![64, 128]⟩
abbrev S1x64 : Shape := ⟨2, ![1, 64]⟩
abbrev S5000x64 : Shape := ⟨2, ![5000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S1600000x128 : Shape := ⟨2, ![1600000, 128]⟩
abbrev S1x32 : Shape := ⟨2, ![1, 32]⟩
abbrev S100000x32 : Shape := ⟨2, ![100000, 32]⟩
abbrev S5000x32 : Shape := ⟨2, ![5000, 32]⟩
abbrev S1600000x32 : Shape := ⟨2, ![1600000, 32]⟩

abbrev nBuf : Space → Nat
  | .hbm => 118
  | .vmem => 60
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S128x64, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S32, .f32⟩
  | .hbm, ⟨11, _⟩ => ⟨S32x128, .f32⟩
  | .hbm, ⟨12, _⟩ => ⟨S32x32, .f32⟩
  | .hbm, ⟨13, _⟩ => ⟨S32, .f32⟩
  | .hbm, ⟨14, _⟩ => ⟨S128x32, .f32⟩
  | .hbm, ⟨15, _⟩ => ⟨S128, .f32⟩
  | .hbm, ⟨16, _⟩ => ⟨S128x32, .f32⟩
  | .hbm, ⟨17, _⟩ => ⟨S128x128, .f32⟩
  | .hbm, ⟨18, _⟩ => ⟨S128, .f32⟩
  | .hbm, ⟨19, _⟩ => ⟨S64x128, .f32⟩
  | .hbm, ⟨20, _⟩ => ⟨S64, .f32⟩
  | .hbm, ⟨21, _⟩ => ⟨S64x128, .f32⟩
  | .hbm, ⟨22, _⟩ => ⟨S64x64, .f32⟩
  | .hbm, ⟨23, _⟩ => ⟨S1x64, .f32⟩
  | .hbm, ⟨24, _⟩ => ⟨S100000x64, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S64x128, .f32⟩
  | .hbm, ⟨43, _⟩ => ⟨S64x128, .f32⟩
  | .hbm, ⟨44, _⟩ => ⟨S1x128, .f32⟩
  | .hbm, ⟨45, _⟩ => ⟨S100000x128, .f32⟩
  | .hbm, ⟨46, _⟩ => ⟨S128x128, .f32⟩
  | .hbm, ⟨47, _⟩ => ⟨S1x128, .f32⟩
  | .hbm, ⟨48, _⟩ => ⟨S100000x128, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S128x32, .f32⟩
  | .hbm, ⟨67, _⟩ => ⟨S128x32, .f32⟩
  | .hbm, ⟨68, _⟩ => ⟨S1x32, .f32⟩
  | .hbm, ⟨69, _⟩ => ⟨S100000x32, .f32⟩
  | .hbm, ⟨70, _⟩ => ⟨S32x32, .f32⟩
  | .hbm, ⟨71, _⟩ => ⟨S1x32, .f32⟩
  | .hbm, ⟨72, _⟩ => ⟨S100000x32, .f32⟩
  | .hbm, ⟨73, _⟩ => ⟨S1x1600000, .i32⟩
  | .hbm, ⟨74, _⟩ => ⟨S1600000, .i32⟩
  | .hbm, ⟨75, _⟩ => ⟨S1x1600000, .i32⟩
  | .hbm, ⟨76, _⟩ => ⟨S1600000, .i32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S1600000x1, .i32⟩
  | .hbm, ⟨89, _⟩ => ⟨S100000x32, .f32⟩
  | .hbm, ⟨90, _⟩ => ⟨S32x128, .f32⟩
  | .hbm, ⟨91, _⟩ => ⟨S32x128, .f32⟩
  | .hbm, ⟨92, _⟩ => ⟨S1x128, .f32⟩
  | .hbm, ⟨93, _⟩ => ⟨S100000x128, .f32⟩
  | .hbm, ⟨94, _⟩ => ⟨S128x128, .f32⟩
  | .hbm, ⟨95, _⟩ => ⟨S1x128, .f32⟩
  | .hbm, ⟨96, _⟩ => ⟨S100000x128, .f32⟩
  | .hbm, ⟨97, _⟩ => ⟨S1x1600000, .i32⟩
  | .hbm, ⟨98, _⟩ => ⟨S1600000, .i32⟩
  | .hbm, ⟨99, _⟩ => ⟨S1x1600000, .i32⟩
  | .hbm, ⟨100, _⟩ => ⟨S1600000, .i32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x128, .f32⟩
  | .hbm, ⟨110, _⟩ => ⟨S_, .f32⟩
  | .hbm, ⟨111, _⟩ => ⟨S100000x128, .f32⟩
  | .hbm, ⟨112, _⟩ => ⟨S1600000x1, .i32⟩
  | .hbm, ⟨113, _⟩ => ⟨S100000x128, .f32⟩
  | .hbm, ⟨114, _⟩ => ⟨S128x64, .f32⟩
  | .hbm, ⟨115, _⟩ => ⟨S128x64, .f32⟩
  | .hbm, ⟨116, _⟩ => ⟨S1x64, .f32⟩
  | .hbm, ⟨117, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S1x128, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x32, .f32⟩
  | .local _ .vmem, ⟨26, _⟩ => ⟨S1x32, .f32⟩
  | .local _ .vmem, ⟨27, _⟩ => ⟨S128x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S32x128, .f32⟩
  | .local _ .vmem, ⟨41, _⟩ => ⟨S1x128, .f32⟩
  | .local _ .vmem, ⟨42, _⟩ => ⟨S32x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x64, .f32⟩
  | .local _ .vmem, ⟨56, _⟩ => ⟨S1x64, .f32⟩
  | .local _ .vmem, ⟨57, _⟩ => ⟨S128x64, .f32⟩
  | .local _ .vmem, ⟨58, _⟩ => ⟨S5000x64, .f32⟩
  | .local _ .vmem, ⟨59, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_c_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_4 : Ref sig .tc := ⟨.hbm, 77, rfl⟩
abbrev main_v49 : Ref sig .tc := ⟨.hbm, 78, rfl⟩
abbrev main_v50 : Ref sig .tc := ⟨.hbm, 79, rfl⟩
abbrev main_c_5 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_6 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_7 : Ref sig .tc := ⟨.hbm, 101, rfl⟩
abbrev main_v70 : Ref sig .tc := ⟨.hbm, 102, rfl⟩
abbrev main_v71 : Ref sig .tc := ⟨.hbm, 103, rfl⟩
abbrev main_c_8 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_9 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  transposes_S32x128_S128x32_1_0 : S32x128.Transposes [1, 0] S128x32
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  transposes_S32x32_S32x32_1_0 : S32x32.Transposes [1, 0] S32x32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S100000x32 : S_.BroadcastsInDim S100000x32 (![] : Fin 0 → Fin S100000x32.rank)
  transposes_S128x32_S32x128_1_0 : S128x32.Transposes [1, 0] S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x32.size a ≤ S128x32.size a
  hwx3_2 : ∀ i : grid3.Coords, EltTy.bits .f32 = 32 ∨ (Rect.block (s := S128x32) S128x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x32.size a ≤ S128x32.size a
  hwx3_4 : ∀ i : grid3.Coords, EltTy.bits .f32 = 32 ∨ (Rect.block (s := S128x32) S128x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x128.size a ≤ S32x128.size a
  hwx5_2 : ∀ i : grid5.Coords, EltTy.bits .f32 = 32 ∨ (Rect.block (s := S32x128) S32x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x128.size a ≤ S32x128.size a
  hwx5_4 : ∀ i : grid5.Coords, EltTy.bits .f32 = 32 ∨ (Rect.block (s := S32x128) S32x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x64.size a ≤ S128x64.size a
  hwx7_2 : ∀ i : grid7.Coords, EltTy.bits .f32 = 32 ∨ (Rect.block (s := S128x64) S128x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x64.size a ≤ S128x64.size a
  hwx7_4 : ∀ i : grid7.Coords, EltTy.bits .f32 = 32 ∨ (Rect.block (s := S128x64) S128x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S128x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v41) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v58) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S32x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S32x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v65) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v79) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v80) S128x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v81) S128x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S128 : Shape := ⟨1, ![128]⟩
abbrev S128x128 : Shape := ⟨2, ![128, 128]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S64x128 : Shape := ⟨2, ![64, 128]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 160
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S128x64, .f32⟩
  | 5 => ⟨S128, .f32⟩
  | 6 => ⟨S128x64, .f32⟩
  | 7 => ⟨S128x128, .f32⟩
  | 8 => ⟨S128, .f32⟩
  | 9 => ⟨S32x128, .f32⟩
  | 10 => ⟨S32, .f32⟩
  | 11 => ⟨S32x128, .f32⟩
  | 12 => ⟨S32x32, .f32⟩
  | 13 => ⟨S32, .f32⟩
  | 14 => ⟨S128x32, .f32⟩
  | 15 => ⟨S128, .f32⟩
  | 16 => ⟨S128x32, .f32⟩
  | 17 => ⟨S128x128, .f32⟩
  | 18 => ⟨S128, .f32⟩
  | 19 => ⟨S64x128, .f32⟩
  | 20 => ⟨S64, .f32⟩
  | 21 => ⟨S64x128, .f32⟩
  | 22 => ⟨S64x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1x1600000, .i32⟩
  | 42 => ⟨S1600000, .i32⟩
  | 43 => ⟨S_, .f32⟩
  | 44 => ⟨S100000x64, .f32⟩
  | 45 => ⟨S1600000x1, .i32⟩
  | 46 => ⟨S100000x64, .f32⟩
  | 47 => ⟨S64x128, .f32⟩
  | 48 => ⟨S100000x128, .f32⟩
  | 49 => ⟨S1x128, .f32⟩
  | 50 => ⟨S100000x128, .f32⟩
  | 51 => ⟨S100000x128, .f32⟩
  | 52 => ⟨S64x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S128x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S1x1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1x1600000, .i32⟩
  | 78 => ⟨S1600000, .i32⟩
  | 79 => ⟨S_, .f32⟩
  | 80 => ⟨S100000x128, .f32⟩
  | 81 => ⟨S1600000x1, .i32⟩
  | 82 => ⟨S100000x128, .f32⟩
  | 83 => ⟨S128x32, .f32⟩
  | 84 => ⟨S100000x32, .f32⟩
  | 85 => ⟨S1x32, .f32⟩
  | 86 => ⟨S100000x32, .f32⟩
  | 87 => ⟨S100000x32, .f32⟩
  | 88 => ⟨S128x32, .f32⟩
  | 89 => ⟨S100000x32, .f32⟩
  | 90 => ⟨S100000x32, .f32⟩
  | 91 => ⟨S32x32, .f32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S1x1600000, .i32⟩
  | 100 => ⟨S1600000, .i32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x32, .f32⟩
  | 110 => ⟨S1x1600000, .i32⟩
  | 111 => ⟨S1600000, .i32⟩
  | 112 => ⟨S_, .f32⟩
  | 113 => ⟨S100000x32, .f32⟩
  | 114 => ⟨S1600000x1, .i32⟩
  | 115 => ⟨S100000x32, .f32⟩
  | 116 => ⟨S32x128, .f32⟩
  | 117 => ⟨S100000x128, .f32⟩
  | 118 => ⟨S1x128, .f32⟩
  | 119 => ⟨S100000x128, .f32⟩
  | 120 => ⟨S100000x128, .f32⟩
  | 121 => ⟨S32x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S128x128, .f32⟩
  | _ => ⟨S100000x64, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S1x1600000, .i32⟩
  | 8 => ⟨S1600000, .i32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1x1600000, .i32⟩
  | 19 => ⟨S1600000, .i32⟩
  | 20 => ⟨S_, .f32⟩
  | 21 => ⟨S100000x128, .f32⟩
  | 22 => ⟨S1600000x1, .i32⟩
  | 23 => ⟨S100000x128, .f32⟩
  | 24 => ⟨S128x64, .f32⟩
  | 25 => ⟨S100000x64, .f32⟩
  | 26 => ⟨S1x64, .f32⟩
  | 27 => ⟨S100000x64, .f32⟩
  | 28 => ⟨S100000x64, .f32⟩
  | 29 => ⟨S128x64, .f32⟩
  | 30 => ⟨S100000x64, .f32⟩
  | 31 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call2_cst : Ref sig .tc := ⟨.hbm, 63, rfl⟩
abbrev main_call2_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_1 : Ref sig .tc := ⟨.hbm, 68, rfl⟩
abbrev main_v37 : Ref sig .tc := ⟨.hbm, 69, rfl⟩
abbrev main_v38 : Ref sig .tc := ⟨.hbm, 70, rfl⟩
abbrev main_c_2 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_3 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call3_cst : Ref sig .tc := ⟨.hbm, 96, rfl⟩
abbrev main_call3_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_4 : Ref sig .tc := ⟨.hbm, 101, rfl⟩
abbrev main_v65 : Ref sig .tc := ⟨.hbm, 102, rfl⟩
abbrev main_v66 : Ref sig .tc := ⟨.hbm, 103, rfl⟩
abbrev main_c_5 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_6 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call4_cst : Ref sig .tc := ⟨.hbm, 124, rfl⟩
abbrev main_call4_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call5_cst : Ref sig .tc := ⟨.hbm, 132, rfl⟩
abbrev main_call5_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_7 : Ref sig .tc := ⟨.hbm, 137, rfl⟩
abbrev main_v94 : Ref sig .tc := ⟨.hbm, 138, rfl⟩
abbrev main_v95 : Ref sig .tc := ⟨.hbm, 139, rfl⟩
abbrev main_c_8 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_9 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S32x32_S32x32_1_0 : S32x32.Transposes [1, 0] S32x32
  bcast_S_S100000x32 : S_.BroadcastsInDim S100000x32 (![] : Fin 0 → Fin S100000x32.rank)
  transposes_S128x32_S32x128_1_0 : S128x32.Transposes [1, 0] S32x128
  transposes_S64x128_S128x64_1_0 : S64x128.Transposes [1, 0] S128x64
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x64_S100000x64_1_0_0_1_n_n_wf : DotDims.WF S100000x128 S128x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with every buffer named.

  The program is a chain of sixteen segments: eight stretches of host operations alternating with eight
  pipelined regions.  The generated frame module folds the buffer contents through that chain
  (`Gen.W0` … `Gen.W16`) and proves the frame; its last step forgets everything but the arguments.
  Here the same chain is run once more with the final contents kept: after any weakly fair execution every
  unscoped buffer `b` of every core holds `Gen.W16 m ρ c b`.  The value of each result buffer is then a
  statement about the fold alone.
-/
import proofs.«177831_j51780125720795_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer ends at
    the last boundary's contents of the fold through the sixteen segments. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

end Cert.KernelIdeal.Whole

end
-- ==== Proof.KernelDots.lean ====
/-
  The kernels' matrix products read at an index.

  Each kernel multiplies a block of 5000 rows by a whole weight matrix, accumulating into zero.  On extended
  reals that product at row `p`, column `c` is the plain sum over the contracted position `q` of
  `l (p, q) · r (q, c)`: the left operand's index keeps the row and takes `q` as its column, the right operand's
  takes `q` as its row and keeps the column.  One statement per pair of extents that occurs.
-/
import proofs.«177831_j51780125720795_1_alg».proof.Proof.Gen.KernelIdeal
import Idealize.ShloMosaic.PureOps.Ideal.Laws
import Idealize.ShloMosaic.Lib.ValueIdx

noncomputable section

namespace Cert.KernelIdeal.Dots

open Cert.KernelIdeal Idealize.ShloMosaic Idealize.ShloMosaic.ValueIdx

/-! ## 5000 × 64 times 64 × 64 -/

theorem lhs_row_64_64 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col_64_64 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs_row_64_64 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs_col_64_64 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator at `(p, c)` is `∑ q, l (p, q) · r (q, c)`. -/
theorem matmul_64_64 {φ₁ φ₂ : FTy} (l : FVec Ideal S5000x64 φ₁) (r : FVec Ideal S64x64 φ₂) (p : Fin 5000) (c : Fin 64) :
    matmul dot_S5000x64_S64x64_S5000x64_1_0_0_1_n_n none l r (constant S5000x64 .f32 0x00000000#32) (ix2 p c) = ∑ q : Fin 64, l (ix2 p q) * r (ix2 q c) := by
  show FloatOps.matmul dot_S5000x64_S64x64_S5000x64_1_0_0_1_n_n none l r (constant S5000x64 .f32 0x00000000#32) (ix2 p c) = _
  rw [Ideal.matmul_constant_zero_apply, ← Equiv.sum_comp (contrEquiv1 dot_S5000x64_S64x64_S5000x64_1_0_0_1_n_n 64 rfl rfl).symm]
  refine Finset.sum_congr rfl fun q _ => ?_
  have hq := contrEquiv1_symm_val dot_S5000x64_S64x64_S5000x64_1_0_0_1_n_n 64 rfl rfl q
  have el : dot_S5000x64_S64x64_S5000x64_1_0_0_1_n_n.lhsIdx (ix2 p c) ((contrEquiv1 dot_S5000x64_S64x64_S5000x64_1_0_0_1_n_n 64 rfl rfl).symm q) = ix2 p q := funext fun a => Fin.ext (by
    match a with
    | ⟨0, _⟩ => exact lhs_row_64_64 _ _
    | ⟨1, _⟩ => exact (lhs_col_64_64 _ _).trans hq)
  have er : dot_S5000x64_S64x64_S5000x64_1_0_0_1_n_n.rhsIdx (ix2 p c) ((contrEquiv1 dot_S5000x64_S64x64_S5000x64_1_0_0_1_n_n 64 rfl rfl).symm q) = ix2 q c := funext fun a => Fin.ext (by
    match a with
    | ⟨0, _⟩ => exact (rhs_row_64_64 _ _).trans hq
    | ⟨1, _⟩ => exact rhs_col_64_64 _ _)
  rw [el, er]

/-! ## 5000 × 64 times 64 × 128 -/

theorem lhs_row_64_128 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_col_64_128 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs_row_64_128 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs_col_64_128 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into a zero accumulator at `(p, c)` is `∑ q, l (p, q) · r (q, c)`. -/
theorem matmul_64_128 {φ₁ φ₂ : FTy} (l : FVec Ideal S5000x64 φ₁) (r : FVec Ideal S64x128 φ₂) (p : Fin 5000) (c : Fin 128) :
    matmul dot_S5000x64_S64x128_S5000x128_1_0_0_1_n_n none l r (constant S5000x128 .f32 0x00000000#32) (ix2 p c) = ∑ q : Fin 64, l (ix2 p q) * r (ix2 q c) := by
  show FloatOps.matmul dot_S5000x64_S64x128_S5000x128_1_0_0_1_n_n none l r (constant S5000x128 .f32 0x00000000#32) (ix2 p c) = _
  rw [Ideal.matmul_constant_zero_apply, ← Equiv.sum_comp (contrEquiv1 dot_S5000x64_S64x128_S5000x128_1_0_0_1_n_n 64 rfl rfl).symm]
  refine Finset.sum_congr rfl fun q _ => ?_
  have hq := contrEquiv1_symm_val dot_S5000x64_S64x128_S5000x128_1_0_0_1_n_n 64 rfl rfl q
  have el : dot_S5000x64_S64x128_S5000x128_1_0_0_1_n_n.lhsIdx (ix2 p c) ((contrEquiv1 dot_S5000x64_S64x128_S5000x128_1_0_0_1_n_n 64 rfl rfl).symm q) = ix2 p q := funext fun a => Fin.ext (by
    match a with
    | ⟨0, _⟩ => exact lhs_row_64_128 _ _
    | ⟨1, _⟩ => exact (lhs_col_64_128 _ _).trans hq)
  have er : dot_S5000x64_S64x128_S5000x128_1_0_0_1_n_n.rhsIdx (ix2 p c) ((contrEquiv1 dot_S5000x64_S64x128_S5000x128_1_0_0_1_n_n 64 rfl rfl).symm q) = ix2 q c := funext fun a => Fin.ext (by
    match a with
    | ⟨0, _⟩ => exact (rhs_row_64_128 _ _).trans hq
    | ⟨1, _⟩ => exact rhs_col_64_128 _ _)
  rw [el, er]

/-! ## 5000 × 128 times 128 × 128 -/

theorem lhs_row_128_128 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col_128_128 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row_128_128 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col_128_128 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator at `(p, c)` is `∑ q, l (p, q) · r (q, c)`. -/
theorem matmul_128_128 {φ₁ φ₂ : FTy} (l : FVec Ideal S5000x128 φ₁) (r : FVec Ideal S128x128 φ₂) (p : Fin 5000) (c : Fin 128) :
    matmul dot_S5000x128_S128x128_S5000x128_1_0_0_1_n_n none l r (constant S5000x128 .f32 0x00000000#32) (ix2 p c) = ∑ q : Fin 128, l (ix2 p q) * r (ix2 q c) := by
  show FloatOps.matmul dot_S5000x128_S128x128_S5000x128_1_0_0_1_n_n none l r (constant S5000x128 .f32 0x00000000#32) (ix2 p c) = _
  rw [Ideal.matmul_constant_zero_apply, ← Equiv.sum_comp (contrEquiv1 dot_S5000x128_S128x128_S5000x128_1_0_0_1_n_n 128 rfl rfl).symm]
  refine Finset.sum_congr rfl fun q _ => ?_
  have hq := contrEquiv1_symm_val dot_S5000x128_S128x128_S5000x128_1_0_0_1_n_n 128 rfl rfl q
  have el : dot_S5000x128_S128x128_S5000x128_1_0_0_1_n_n.lhsIdx (ix2 p c) ((contrEquiv1 dot_S5000x128_S128x128_S5000x128_1_0_0_1_n_n 128 rfl rfl).symm q) = ix2 p q := funext fun a => Fin.ext (by
    match a with
    | ⟨0, _⟩ => exact lhs_row_128_128 _ _
    | ⟨1, _⟩ => exact (lhs_col_128_128 _ _).trans hq)
  have er : dot_S5000x128_S128x128_S5000x128_1_0_0_1_n_n.rhsIdx (ix2 p c) ((contrEquiv1 dot_S5000x128_S128x128_S5000x128_1_0_0_1_n_n 128 rfl rfl).symm q) = ix2 q c := funext fun a => Fin.ext (by
    match a with
    | ⟨0, _⟩ => exact (rhs_row_128_128 _ _).trans hq
    | ⟨1, _⟩ => exact rhs_col_128_128 _ _)
  rw [el, er]

/-! ## 5000 × 128 times 128 × 32 -/

theorem lhs_row_128_32 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_col_128_32 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem rhs_row_128_32 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem rhs_col_128_32 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The product into a zero accumulator at `(p, c)` is `∑ q, l (p, q) · r (q, c)`. -/
theorem matmul_128_32 {φ₁ φ₂ : FTy} (l : FVec Ideal S5000x128 φ₁) (r : FVec Ideal S128x32 φ₂) (p : Fin 5000) (c : Fin 32) :
    matmul dot_S5000x128_S128x32_S5000x32_1_0_0_1_n_n none l r (constant S5000x32 .f32 0x00000000#32) (ix2 p c) = ∑ q : Fin 128, l (ix2 p q) * r (ix2 q c) := by
  show FloatOps.matmul dot_S5000x128_S128x32_S5000x32_1_0_0_1_n_n none l r (constant S5000x32 .f32 0x00000000#32) (ix2 p c) = _
  rw [Ideal.matmul_constant_zero_apply, ← Equiv.sum_comp (contrEquiv1 dot_S5000x128_S128x32_S5000x32_1_0_0_1_n_n 128 rfl rfl).symm]
  refine Finset.sum_congr rfl fun q _ => ?_
  have hq := contrEquiv1_symm_val dot_S5000x128_S128x32_S5000x32_1_0_0_1_n_n 128 rfl rfl q
  have el : dot_S5000x128_S128x32_S5000x32_1_0_0_1_n_n.lhsIdx (ix2 p c) ((contrEquiv1 dot_S5000x128_S128x32_S5000x32_1_0_0_1_n_n 128 rfl rfl).symm q) = ix2 p q := funext fun a => Fin.ext (by
    match a with
    | ⟨0, _⟩ => exact lhs_row_128_32 _ _
    | ⟨1, _⟩ => exact (lhs_col_128_32 _ _).trans hq)
  have er : dot_S5000x128_S128x32_S5000x32_1_0_0_1_n_n.rhsIdx (ix2 p c) ((contrEquiv1 dot_S5000x128_S128x32_S5000x32_1_0_0_1_n_n 128 rfl rfl).symm q) = ix2 q c := funext fun a => Fin.ext (by
    match a with
    | ⟨0, _⟩ => exact (rhs_row_128_32 _ _).trans hq
    | ⟨1, _⟩ => exact rhs_col_128_32 _ _)
  rw [el, er]

/-! ## 5000 × 32 times 32 × 32 -/

theorem lhs_row_32_32 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_col_32_32 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem rhs_row_32_32 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem rhs_col_32_32 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The product into a zero accumulator at `(p, c)` is `∑ q, l (p, q) · r (q, c)`. -/
theorem matmul_32_32 {φ₁ φ₂ : FTy} (l : FVec Ideal S5000x32 φ₁) (r : FVec Ideal S32x32 φ₂) (p : Fin 5000) (c : Fin 32) :
    matmul dot_S5000x32_S32x32_S5000x32_1_0_0_1_n_n none l r (constant S5000x32 .f32 0x00000000#32) (ix2 p c) = ∑ q : Fin 32, l (ix2 p q) * r (ix2 q c) := by
  show FloatOps.matmul dot_S5000x32_S32x32_S5000x32_1_0_0_1_n_n none l r (constant S5000x32 .f32 0x00000000#32) (ix2 p c) = _
  rw [Ideal.matmul_constant_zero_apply, ← Equiv.sum_comp (contrEquiv1 dot_S5000x32_S32x32_S5000x32_1_0_0_1_n_n 32 rfl rfl).symm]
  refine Finset.sum_congr rfl fun q _ => ?_
  have hq := contrEquiv1_symm_val dot_S5000x32_S32x32_S5000x32_1_0_0_1_n_n 32 rfl rfl q
  have el : dot_S5000x32_S32x32_S5000x32_1_0_0_1_n_n.lhsIdx (ix2 p c) ((contrEquiv1 dot_S5000x32_S32x32_S5000x32_1_0_0_1_n_n 32 rfl rfl).symm q) = ix2 p q := funext fun a => Fin.ext (by
    match a with
    | ⟨0, _⟩ => exact lhs_row_32_32 _ _
    | ⟨1, _⟩ => exact (lhs_col_32_32 _ _).trans hq)
  have er : dot_S5000x32_S32x32_S5000x32_1_0_0_1_n_n.rhsIdx (ix2 p c) ((contrEquiv1 dot_S5000x32_S32x32_S5000x32_1_0_0_1_n_n 32 rfl rfl).symm q) = ix2 q c := funext fun a => Fin.ext (by
    match a with
    | ⟨0, _⟩ => exact (rhs_row_32_32 _ _).trans hq
    | ⟨1, _⟩ => exact rhs_col_32_32 _ _)
  rw [el, er]

/-! ## 5000 × 32 times 32 × 128 -/

theorem lhs_row_32_128 (i : S5000x128.Idx) (q : dot_S5000x32_S32x128_S5000x128_1_0_0_1_n_n.contr.Idx) : (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem lhs_col_32_128 (i : S5000x128.Idx) (q : dot_S5000x32_S32x128_S5000x128_1_0_0_1_n_n.contr.Idx) : (dot_S5000x32_S32x128_S5000x128_1_0_0_1_n_n.lhsIdx i q 1).val = (q ⟨0, by decide⟩).val :=
  dot_S5000x32_S32x128_S5000x128_1_0_0_1_n_n.lhsIdx_val_of_single rfl i q
theorem rhs_row_32_128 (i : S5000x128.Idx) (q : dot_S5000x32_S32x128_S5000x128_1_0_0_1_n_n.contr.Idx) : (dot_S5000x32_S32x128_S5000x128_1_0_0_1_n_n.rhsIdx i q 0).val = (q ⟨0, by decide⟩).val :=
  dot_S5000x32_S32x128_S5000x128_1_0_0_1_n_n.rhsIdx_val_of_single rfl i q
theorem rhs_col_32_128 (i : S5000x128.Idx) (q : dot_S5000x32_S32x128_S5000x128_1_0_0_1_n_n.contr.Idx) : (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product into a zero accumulator at `(p, c)` is `∑ q, l (p, q) · r (q, c)`. -/
theorem matmul_32_128 {φ₁ φ₂ : FTy} (l : FVec Ideal S5000x32 φ₁) (r : FVec Ideal S32x128 φ₂) (p : Fin 5000) (c : Fin 128) :
    matmul dot_S5000x32_S32x128_S5000x128_1_0_0_1_n_n none l r (constant S5000x128 .f32 0x00000000#32) (ix2 p c) = ∑ q : Fin 32, l (ix2 p q) * r (ix2 q c) := by
  show FloatOps.matmul dot_S5000x32_S32x128_S5000x128_1_0_0_1_n_n none l r (constant S5000x128 .f32 0x00000000#32) (ix2 p c) = _
  rw [Ideal.matmul_constant_zero_apply, ← Equiv.sum_comp (contrEquiv1 dot_S5000x32_S32x128_S5000x128_1_0_0_1_n_n 32 rfl rfl).symm]
  refine Finset.sum_congr rfl fun q _ => ?_
  have hq := contrEquiv1_symm_val dot_S5000x32_S32x128_S5000x128_1_0_0_1_n_n 32 rfl rfl q
  have el : dot_S5000x32_S32x128_S5000x128_1_0_0_1_n_n.lhsIdx (ix2 p c) ((contrEquiv1 dot_S5000x32_S32x128_S5000x128_1_0_0_1_n_n 32 rfl rfl).symm q) = ix2 p q := funext fun a => Fin.ext (by
    match a with
    | ⟨0, _⟩ => exact lhs_row_32_128 _ _
    | ⟨1, _⟩ => exact (lhs_col_32_128 _ _).trans hq)
  have er : dot_S5000x32_S32x128_S5000x128_1_0_0_1_n_n.rhsIdx (ix2 p c) ((contrEquiv1 dot_S5000x32_S32x128_S5000x128_1_0_0_1_n_n 32 rfl rfl).symm q) = ix2 q c := funext fun a => Fin.ext (by
    match a with
    | ⟨0, _⟩ => exact (rhs_row_32_128 _ _).trans hq
    | ⟨1, _⟩ => exact rhs_col_32_128 _ _)
  rw [el, er]

/-! ## 5000 × 128 times 128 × 64 -/

theorem lhs_row_128_64 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col_128_64 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_row_128_64 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_col_128_64 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator at `(p, c)` is `∑ q, l (p, q) · r (q, c)`. -/
theorem matmul_128_64 {φ₁ φ₂ : FTy} (l : FVec Ideal S5000x128 φ₁) (r : FVec Ideal S128x64 φ₂) (p : Fin 5000) (c : Fin 64) :
    matmul dot_S5000x128_S128x64_S5000x64_1_0_0_1_n_n none l r (constant S5000x64 .f32 0x00000000#32) (ix2 p c) = ∑ q : Fin 128, l (ix2 p q) * r (ix2 q c) := by
  show FloatOps.matmul dot_S5000x128_S128x64_S5000x64_1_0_0_1_n_n none l r (constant S5000x64 .f32 0x00000000#32) (ix2 p c) = _
  rw [Ideal.matmul_constant_zero_apply, ← Equiv.sum_comp (contrEquiv1 dot_S5000x128_S128x64_S5000x64_1_0_0_1_n_n 128 rfl rfl).symm]
  refine Finset.sum_congr rfl fun q _ => ?_
  have hq := contrEquiv1_symm_val dot_S5000x128_S128x64_S5000x64_1_0_0_1_n_n 128 rfl rfl q
  have el : dot_S5000x128_S128x64_S5000x64_1_0_0_1_n_n.lhsIdx (ix2 p c) ((contrEquiv1 dot_S5000x128_S128x64_S5000x64_1_0_0_1_n_n 128 rfl rfl).symm q) = ix2 p q := funext fun a => Fin.ext (by
    match a with
    | ⟨0, _⟩ => exact lhs_row_128_64 _ _
    | ⟨1, _⟩ => exact (lhs_col_128_64 _ _).trans hq)
  have er : dot_S5000x128_S128x64_S5000x64_1_0_0_1_n_n.rhsIdx (ix2 p c) ((contrEquiv1 dot_S5000x128_S128x64_S5000x64_1_0_0_1_n_n 128 rfl rfl).symm q) = ix2 q c := funext fun a => Fin.ext (by
    match a with
    | ⟨0, _⟩ => exact (rhs_row_128_64 _ _).trans hq
    | ⟨1, _⟩ => exact rhs_col_128_64 _ _)
  rw [el, er]

end Cert.KernelIdeal.Dots

end
-- ==== Proof.Spec.lean ====
/-
  The mathematics of one graph-convolution stage, on extended reals, index by index.

  A dense layer maps a matrix `x` of `n` rows and `k` columns to `n` rows and `j` columns:
  entry `(r, c)` of the result is the sum over `q` of `x (r, q) · w (q, c)`, plus the bias `b (0, c)`
  (the weight is given already transposed, `k` rows by `j` columns, and the bias as one row).
  The "project" stage is such a layer followed by `max · 0`; the "combine" stage adds to the layer of the
  aggregated neighbours a second, bias-free product of the node's own features, with or without the final
  `max · 0`.  Every function here reads row `r` of its result from row `r` of its matrix operands only,
  which is what lets a row-tiled computation of it be assembled block by block.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals with `n` rows and `k` columns. -/
abbrev Mat (n k : ℕ) : Type := (⟨2, ![n, k]⟩ : Shape).Idx → EReal

/-- The product of `x` (`n × k`) and `w` (`k × j`) at row `r`, column `c`. -/
def prodAt {n k j : ℕ} (x : Mat n k) (w : Mat k j) (r : Fin n) (c : Fin j) : EReal :=
  ∑ q : Fin k, x (ix2 r q) * w (ix2 q c)

/-- The project stage: `max (x · w + b) 0`. -/
def project {n k j : ℕ} (x : Mat n k) (w : Mat k j) (b : Mat 1 j) : Mat n j :=
  fun i => max (prodAt x w (i 0) (i 1) + b (ix2 (0 : Fin 1) (i 1))) 0

/-- The combine stage without the final maximum: `(a · wl + b) + x · wr`. -/
def combine {n k j : ℕ} (a x : Mat n k) (wl : Mat k j) (b : Mat 1 j) (wr : Mat k j) : Mat n j :=
  fun i => prodAt a wl (i 0) (i 1) + b (ix2 (0 : Fin 1) (i 1)) + prodAt x wr (i 0) (i 1)

/-- The combine stage followed by `max · 0`. -/
def combineRelu {n k j : ℕ} (a x : Mat n k) (wl : Mat k j) (b : Mat 1 j) (wr : Mat k j) : Mat n j :=
  fun i => max (combine a x wl b wr i) 0

theorem project_ix2 {n k j : ℕ} (x : Mat n k) (w : Mat k j) (b : Mat 1 j) (r : Fin n) (c : Fin j) :
    project x w b (ix2 r c) = max (prodAt x w r c + b (ix2 (0 : Fin 1) c)) 0 := rfl

theorem combine_ix2 {n k j : ℕ} (a x : Mat n k) (wl : Mat k j) (b : Mat 1 j) (wr : Mat k j) (r : Fin n) (c : Fin j) :
    combine a x wl b wr (ix2 r c) = prodAt a wl r c + b (ix2 (0 : Fin 1) c) + prodAt x wr r c := rfl

theorem combineRelu_ix2 {n k j : ℕ} (a x : Mat n k) (wl : Mat k j) (b : Mat 1 j) (wr : Mat k j) (r : Fin n) (c : Fin j) :
    combineRelu a x wl b wr (ix2 r c) = max (prodAt a wl r c + b (ix2 (0 : Fin 1) c) + prodAt x wr r c) 0 := rfl

end Cert.Sage

end
-- ==== Proof.Payloads.lean ====
/-
  The kernels' arithmetic at one entry of a block.

  Each kernel body computes, from the blocks it loads, one block of 5000 rows: the project kernels
  `max (x · w + b) 0`, the combine kernels `(a · wl + b) + x · wr`, two of them followed by `max · 0`.  On extended
  reals the narrowing of the operands before the products is the identity, a shape cast to the same shape is the
  identity, the bias row broadcast over the rows reads the row at the column, and a product into a zero
  accumulator is the plain sum; so each body's value at `(p, c)` is the stage of the specification, read on the block.
-/
import proofs.«177831_j51780125720795_1_alg».proof.Proof.Gen.KernelIdeal.Skeleton
import proofs.«177831_j51780125720795_1_alg».proof.Proof.KernelDots
import proofs.«177831_j51780125720795_1_alg».proof.Proof.Spec
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx Cert.Sage
open Cert.KernelIdeal.Facts₀ Cert.KernelIdeal.Facts

theorem pay0 (x : Vec Ideal S5000x64 .f32) (w : Vec Ideal S64x64 .f32) (b : Vec Ideal S1x64 .f32) (p : Fin 5000) (c : Fin 64) :
    k0_pay1 (F := Ideal) x w b (ix2 p c) = project (n := 5000) (k := 64) (j := 64) x w b (ix2 p c) := by
  rw [project_ix2]
  unfold k0_pay1 prodAt
  simp only [maximumf_apply, addf_apply, Dots.matmul_64_64, broadcastTo_1b_ab_apply, broadcast_apply, truncf_apply, shapeCast_self]
  exact congrArg (max _) Ideal.ofBits_zero_f32

theorem pay1 (a x : Vec Ideal S5000x64 .f32) (wl wr : Vec Ideal S64x128 .f32) (b : Vec Ideal S1x128 .f32) (p : Fin 5000) (c : Fin 128) :
    k1_pay1 (F := Ideal) a x wl wr b (ix2 p c) = combineRelu (n := 5000) (k := 64) (j := 128) a x wl b wr (ix2 p c) := by
  rw [combineRelu_ix2]
  unfold k1_pay1 prodAt
  simp only [maximumf_apply, addf_apply, Dots.matmul_64_128, broadcastTo_1b_ab_apply, broadcast_apply, truncf_apply, shapeCast_self]
  exact congrArg (max _) Ideal.ofBits_zero_f32

theorem pay2 (x : Vec Ideal S5000x128 .f32) (w : Vec Ideal S128x128 .f32) (b : Vec Ideal S1x128 .f32) (p : Fin 5000) (c : Fin 128) :
    k2_pay1 (F := Ideal) x w b (ix2 p c) = project (n := 5000) (k := 128) (j := 128) x w b (ix2 p c) := by
  rw [project_ix2]
  unfold k2_pay1 prodAt
  simp only [maximumf_apply, addf_apply, Dots.matmul_128_128, broadcastTo_1b_ab_apply, broadcast_apply, truncf_apply, shapeCast_self]
  exact congrArg (max _) Ideal.ofBits_zero_f32

theorem pay3 (a x : Vec Ideal S5000x128 .f32) (wl wr : Vec Ideal S128x32 .f32) (b : Vec Ideal S1x32 .f32) (p : Fin 5000) (c : Fin 32) :
    k3_pay1 (F := Ideal) a x wl wr b (ix2 p c) = combine (n := 5000) (k := 128) (j := 32) a x wl b wr (ix2 p c) := by
  rw [combine_ix2]
  unfold k3_pay1 prodAt
  simp only [maximumf_apply, addf_apply, Dots.matmul_128_32, broadcastTo_1b_ab_apply, broadcast_apply, truncf_apply, shapeCast_self]

theorem pay4 (x : Vec Ideal S5000x32 .f32) (w : Vec Ideal S32x32 .f32) (b : Vec Ideal S1x32 .f32) (p : Fin 5000) (c : Fin 32) :
    k4_pay1 (F := Ideal) x w b (ix2 p c) = project (n := 5000) (k := 32) (j := 32) x w b (ix2 p c) := by
  rw [project_ix2]
  unfold k4_pay1 prodAt
  simp only [maximumf_apply, addf_apply, Dots.matmul_32_32, broadcastTo_1b_ab_apply, broadcast_apply, truncf_apply, shapeCast_self]
  exact congrArg (max _) Ideal.ofBits_zero_f32

theorem pay5 (a x : Vec Ideal S5000x32 .f32) (wl wr : Vec Ideal S32x128 .f32) (b : Vec Ideal S1x128 .f32) (p : Fin 5000) (c : Fin 128) :
    k5_pay1 (F := Ideal) a x wl wr b (ix2 p c) = combineRelu (n := 5000) (k := 32) (j := 128) a x wl b wr (ix2 p c) := by
  rw [combineRelu_ix2]
  unfold k5_pay1 prodAt
  simp only [maximumf_apply, addf_apply, Dots.matmul_32_128, broadcastTo_1b_ab_apply, broadcast_apply, truncf_apply, shapeCast_self]
  exact congrArg (max _) Ideal.ofBits_zero_f32

theorem pay6 (x : Vec Ideal S5000x128 .f32) (w : Vec Ideal S128x128 .f32) (b : Vec Ideal S1x128 .f32) (p : Fin 5000) (c : Fin 128) :
    k6_pay1 (F := Ideal) x w b (ix2 p c) = project (n := 5000) (k := 128) (j := 128) x w b (ix2 p c) := by
  rw [project_ix2]
  unfold k6_pay1 prodAt
  simp only [maximumf_apply, addf_apply, Dots.matmul_128_128, broadcastTo_1b_ab_apply, broadcast_apply, truncf_apply, shapeCast_self]
  exact congrArg (max _) Ideal.ofBits_zero_f32

theorem pay7 (a x : Vec Ideal S5000x128 .f32) (wl wr : Vec Ideal S128x64 .f32) (b : Vec Ideal S1x64 .f32) (p : Fin 5000) (c : Fin 64) :
    k7_pay1 (F := Ideal) a x wl wr b (ix2 p c) = combine (n := 5000) (k := 128) (j := 64) a x wl b wr (ix2 p c) := by
  rw [combine_ix2]
  unfold k7_pay1 prodAt
  simp only [maximumf_apply, addf_apply, Dots.matmul_128_64, broadcastTo_1b_ab_apply, broadcast_apply, truncf_apply, shapeCast_self]

end Cert.KernelIdeal.Payloads

end
-- ==== Proof.Region0.lean ====
/-
  Region 0: what its output array holds when the region is left.

  The region walks twenty grid points; point `t` reads rows `5000 t … 5000 t + 4999` of its row-tiled operands, the
  whole weight matrices and the bias row, and writes rows `5000 t … 5000 t + 4999` of the result.  The stage computed
  (max (x · w + b) 0 of the node features `main_arg0`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the stage applied to the whole arrays. -/
theorem flushed_eq (c : Dev nD) (t : Fin cfg0.N) :
    (dat0 V c).flushed 3 t = ((cfg0.win 3).blk t).view.read (Elt Ideal) (project (n := 100000) (k := 64) (j := 64) (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := index_facts t
  funext y
  obtain ⟨p, r, rfl⟩ : ∃ (p : Fin 5000) (r : Fin 64), y = ix2 p r := ⟨y 0, y 1, eq_ix2 y⟩
  have eo : ((cfg0.win 3).blk t).view.emb (ix2 p r) = ix2 (⟨t.val * 5000 + p.val, by have ht : t.val < 20 := t.isLt; have hp := p.isLt; omega⟩ : Fin 100000) r := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * r.val = r.val; omega
  have em0 : ∀ q : Fin 64, ((cfg0.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win0_0.index t (0 : Fin 2) * 5000 + 1 * p.val = t.val * 5000 + p.val; omega
    | ⟨1, _⟩ => show win0_0.index t (1 : Fin 2) * 64 + 1 * q.val = q.val; omega
  have ew1 : ∀ q : Fin 64, ((cfg0.win 1).blk t).view.emb (ix2 q r) = ix2 q r := fun q => by
    funext a; apply Fin.ext
    match a with
    | ⟨0, _⟩ => show win0_1.index t (0 : Fin 2) * 64 + 1 * q.val = q.val; omega
    | ⟨1, _⟩ => show win0_1.index t (1 : Fin 2) * 64 + 1 * r.val = r.val; omega
  have eb2 : ((cfg0.win 2).blk t).view.emb (ix2 (0 : Fin 1) r) = ix2 (0 : Fin 1) r := by
    funext a; apply Fin.ext
    match a with
    | ⟨0, _⟩ => show win0_2.index t (0 : Fin 2) * 1 + 1 * 0 = 0; omega
    | ⟨1, _⟩ => show win0_2.index t (1 : Fin 2) * 64 + 1 * r.val = r.val; omega
  refine (Payloads.pay0 (iblk0 V c 0 t) (iblk0 V c 1 t) (iblk0 V c 2 t) p r).trans ?_
  show project (n := 5000) (k := 64) (j := 64) (iblk0 V c 0 t) (iblk0 V c 1 t) (iblk0 V c 2 t) (ix2 p r) = (project (n := 100000) (k := 64) (j := 64) (V c main_arg0) (V c main_v0) (V c main_v1)) (((cfg0.win 3).blk t).view.emb (ix2 p r))
  rw [eo, project_ix2, project_ix2]
  unfold prodAt
  refine congrArg (fun u : EReal => max u 0) (congrArg₂ (fun u v : EReal => u + v) (Finset.sum_congr rfl fun q _ => congrArg₂ (fun u v : EReal => u * v) ?_ ?_) ?_)
  · exact congrArg (V c main_arg0) (em0 q)
  · exact congrArg (V c main_v0) (ew1 q)
  · exact congrArg (V c main_v1) eb2

/-- An index of the output array is in point `t`'s block iff its row is in `[5000 t, 5000 t + 5000)` (and its column
    in the one column block). -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v2).slice (win0_3.rect t)).set ↔ _
  rw [View.set_slice_whole, Rect.mem_set_unit]
  exact Iff.rfl

/-- Every row lies in the block of the point `row / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk]
  obtain ⟨e0, e1, e2, e3, e4, e5, e6, e7⟩ := index_facts ⟨(i 0).val / 5000, by show (i 0).val / 5000 < 20; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e7]; omega

/-- The output array when the region is left: the stage of the arrays the region found. -/
theorem value (c : Dev nD) : (dat0 V c).arrAt 3 cfg0.N = (project (n := 100000) (k := 64) (j := 64) (V c main_arg0) (V c main_v0) (V c main_v1)) :=
  (dat0 V c).arrAt_eq_of_cover 3 _ (fun t _ => flushed_eq V c t) (cover)

end Cert.KernelIdeal.Region0

end
-- ==== Proof.Region1.lean ====
/-
  Region 1: what its output array holds when the region is left.

  The region walks twenty grid points; point `t` reads rows `5000 t … 5000 t + 4999` of its row-tiled operands, the
  whole weight matrices and the bias row, and writes rows `5000 t … 5000 t + 4999` of the result.  The stage computed
  (max (· ) 0 of (a · wl + b) + x · wr of the aggregate `main_v16` and the node features `main_arg0`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- What point `t` writes back is block `t` of the stage applied to the whole arrays. -/
theorem flushed_eq (c : Dev nD) (t : Fin cfg1.N) :
    (dat1 V c).flushed 5 t = ((cfg1.win 5).blk t).view.read (Elt Ideal) (combineRelu (n := 100000) (k := 64) (j := 128) (V c main_v16) (V c main_arg0) (V c main_v17) (V c main_v19) (V c main_v18)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz, View.ld_unit_zero (S := S5000x128) hz]
  obtain ⟨e0, e1, e2, e3, e4, e5, e6, e7, e8, e9, e10, e11⟩ := index_facts t
  funext y
  obtain ⟨p, r, rfl⟩ : ∃ (p : Fin 5000) (r : Fin 128), y = ix2 p r := ⟨y 0, y 1, eq_ix2 y⟩
  have eo : ((cfg1.win 5).blk t).view.emb (ix2 p r) = ix2 (⟨t.val * 5000 + p.val, by have ht : t.val < 20 := t.isLt; have hp := p.isLt; omega⟩ : Fin 100000) r := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * r.val = r.val; omega
  have em0 : ∀ q : Fin 64, ((cfg1.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have em1 : ∀ q : Fin 64, ((cfg1.win 1).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win1_1.index t (0 : Fin 2) * 5000 + 1 * p.val = t.val * 5000 + p.val; omega
    | ⟨1, _⟩ => show win1_1.index t (1 : Fin 2) * 64 + 1 * q.val = q.val; omega
  have ew2 : ∀ q : Fin 64, ((cfg1.win 2).blk t).view.emb (ix2 q r) = ix2 q r := fun q => by
    funext a; apply Fin.ext
    match a with
    | ⟨0, _⟩ => show win1_2.index t (0 : Fin 2) * 64 + 1 * q.val = q.val; omega
    | ⟨1, _⟩ => show win1_2.index t (1 : Fin 2) * 128 + 1 * r.val = r.val; omega
  have eb3 : ((cfg1.win 3).blk t).view.emb (ix2 (0 : Fin 1) r) = ix2 (0 : Fin 1) r := by
    funext a; apply Fin.ext
    match a with
    | ⟨0, _⟩ => show win1_3.index t (0 : Fin 2) * 1 + 1 * 0 = 0; omega
    | ⟨1, _⟩ => show win1_3.index t (1 : Fin 2) * 128 + 1 * r.val = r.val; omega
  have ew4 : ∀ q : Fin 64, ((cfg1.win 4).blk t).view.emb (ix2 q r) = ix2 q r := fun q => by
    funext a; apply Fin.ext
    match a with
    | ⟨0, _⟩ => show win1_4.index t (0 : Fin 2) * 64 + 1 * q.val = q.val; omega
    | ⟨1, _⟩ => show win1_4.index t (1 : Fin 2) * 128 + 1 * r.val = r.val; omega
  refine (Payloads.pay1 (iblk1 V c 0 t) (iblk1 V c 1 t) (iblk1 V c 2 t) (iblk1 V c 4 t) (iblk1 V c 3 t) p r).trans ?_
  show combineRelu (n := 5000) (k := 64) (j := 128) (iblk1 V c 0 t) (iblk1 V c 1 t) (iblk1 V c 2 t) (iblk1 V c 3 t) (iblk1 V c 4 t) (ix2 p r) = (combineRelu (n := 100000) (k := 64) (j := 128) (V c main_v16) (V c main_arg0) (V c main_v17) (V c main_v19) (V c main_v18)) (((cfg1.win 5).blk t).view.emb (ix2 p r))
  rw [eo, combineRelu_ix2, combineRelu_ix2]
  unfold prodAt
  refine congrArg (fun u : EReal => max u 0) (congrArg₂ (fun u v : EReal => u + v) (congrArg₂ (fun u v : EReal => u + v) (Finset.sum_congr rfl fun q _ => congrArg₂ (fun u v : EReal => u * v) ?_ ?_) ?_) (Finset.sum_congr rfl fun q _ => congrArg₂ (fun u v : EReal => u * v) ?_ ?_))
  · exact congrArg (V c main_v16) (em0 q)
  · exact congrArg (V c main_v17) (ew2 q)
  · exact congrArg (V c main_v19) eb3
  · exact congrArg (V c main_arg0) (em1 q)
  · exact congrArg (V c main_v18) (ew4 q)

/-- An index of the output array is in point `t`'s block iff its row is in `[5000 t, 5000 t + 5000)` (and its column
    in the one column block). -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v20).slice (win1_5.rect t)).set ↔ _
  rw [View.set_slice_whole, Rect.mem_set_unit]
  exact Iff.rfl

/-- Every row lies in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, by show (i 0).val / 5000 < 20; omega⟩, flush1_5 _, ?_⟩
  rw [mem_blk]
  obtain ⟨e0, e1, e2, e3, e4, e5, e6, e7, e8, e9, e10, e11⟩ := index_facts ⟨(i 0).val / 5000, by show (i 0).val / 5000 < 20; omega⟩
  intro a
  match a with
  | ⟨0, _⟩ => show win1_5.index _ (0 : Fin 2) * 5000 ≤ (i 0).val ∧ (i 0).val < win1_5.index _ (0 : Fin 2) * 5000 + 5000; rw [e10]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e11]; omega

/-- The output array when the region is left: the stage of the arrays the region found. -/
theorem value (c : Dev nD) : (dat1 V c).arrAt 5 cfg1.N = (combineRelu (n := 100000) (k := 64) (j := 128) (V c main_v16) (V c main_arg0) (V c main_v17) (V c main_v19) (V c main_v18)) :=
  (dat1 V c).arrAt_eq_of_cover 5 _ (fun t _ => flushed_eq V c t) (cover)

end Cert.KernelIdeal.Region1

end
-- ==== Proof.Region2.lean ====
/-
  Region 2: what its output array holds when the region is left.

  The region walks twenty grid points; point `t` reads rows `5000 t … 5000 t + 4999` of its row-tiled operands, the
  whole weight matrices and the bias row, and writes rows `5000 t … 5000 t + 4999` of the result.  The stage computed
  (max (x · w + b) 0 of the node features `main_v20`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of the stage applied to the whole arrays. -/
theorem flushed_eq (c : Dev nD) (t : Fin cfg2.N) :
    (dat2 V c).flushed 3 t = ((cfg2.win 3).blk t).view.read (Elt Ideal) (project (n := 100000) (k := 128) (j := 128) (V c main_v20) (V c main_v21) (V c main_v22)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := index_facts t
  funext y
  obtain ⟨p, r, rfl⟩ : ∃ (p : Fin 5000) (r : Fin 128), y = ix2 p r := ⟨y 0, y 1, eq_ix2 y⟩
  have eo : ((cfg2.win 3).blk t).view.emb (ix2 p r) = ix2 (⟨t.val * 5000 + p.val, by have ht : t.val < 20 := t.isLt; have hp := p.isLt; omega⟩ : Fin 100000) r := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * r.val = r.val; omega
  have em0 : ∀ q : Fin 128, ((cfg2.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  have ew1 : ∀ q : Fin 128, ((cfg2.win 1).blk t).view.emb (ix2 q r) = ix2 q r := fun q => by
    funext a; apply Fin.ext
    match a with
    | ⟨0, _⟩ => show win2_1.index t (0 : Fin 2) * 128 + 1 * q.val = q.val; omega
    | ⟨1, _⟩ => show win2_1.index t (1 : Fin 2) * 128 + 1 * r.val = r.val; omega
  have eb2 : ((cfg2.win 2).blk t).view.emb (ix2 (0 : Fin 1) r) = ix2 (0 : Fin 1) r := by
    funext a; apply Fin.ext
    match a with
    | ⟨0, _⟩ => show win2_2.index t (0 : Fin 2) * 1 + 1 * 0 = 0; omega
    | ⟨1, _⟩ => show win2_2.index t (1 : Fin 2) * 128 + 1 * r.val = r.val; omega
  refine (Payloads.pay2 (iblk2 V c 0 t) (iblk2 V c 1 t) (iblk2 V c 2 t) p r).trans ?_
  show project (n := 5000) (k := 128) (j := 128) (iblk2 V c 0 t) (iblk2 V c 1 t) (iblk2 V c 2 t) (ix2 p r) = (project (n := 100000) (k := 128) (j := 128) (V c main_v20) (V c main_v21) (V c main_v22)) (((cfg2.win 3).blk t).view.emb (ix2 p r))
  rw [eo, project_ix2, project_ix2]
  unfold prodAt
  refine congrArg (fun u : EReal => max u 0) (congrArg₂ (fun u v : EReal => u + v) (Finset.sum_congr rfl fun q _ => congrArg₂ (fun u v : EReal => u * v) ?_ ?_) ?_)
  · exact congrArg (V c main_v20) (em0 q)
  · exact congrArg (V c main_v21) (ew1 q)
  · exact congrArg (V c main_v22) eb2

/-- An index of the output array is in point `t`'s block iff its row is in `[5000 t, 5000 t + 5000)` (and its column
    in the one column block). -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v23).slice (win2_3.rect t)).set ↔ _
  rw [View.set_slice_whole, Rect.mem_set_unit]
  exact Iff.rfl

/-- Every row lies in the block of the point `row / 5000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 5000, by show (i 0).val / 5000 < 20; omega⟩, flush2_3 _, ?_⟩
  rw [mem_blk]
  obtain ⟨e0, e1, e2, e3, e4, e5, e6, e7⟩ := index_facts ⟨(i 0).val / 5000, by show (i 0).val / 5000 < 20; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e7]; omega

/-- The output array when the region is left: the stage of the arrays the region found. -/
theorem value (c : Dev nD) : (dat2 V c).arrAt 3 cfg2.N = (project (n := 100000) (k := 128) (j := 128) (V c main_v20) (V c main_v21) (V c main_v22)) :=
  (dat2 V c).arrAt_eq_of_cover 3 _ (fun t _ => flushed_eq V c t) (cover)

end Cert.KernelIdeal.Region2

end
-- ==== Proof.Region3.lean ====
/-
  Region 3: what its output array holds when the region is left.

  The region walks twenty grid points; point `t` reads rows `5000 t … 5000 t + 4999` of its row-tiled operands, the
  whole weight matrices and the bias row, and writes rows `5000 t … 5000 t + 4999` of the result.  The stage computed
  ((a · wl + b) + x · wr of the aggregate `main_v37` and the node features `main_v20`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- What point `t` writes back is block `t` of the stage applied to the whole arrays. -/
theorem flushed_eq (c : Dev nD) (t : Fin cfg3.N) :
    (dat3 V c).flushed 5 t = ((cfg3.win 5).blk t).view.read (Elt Ideal) (combine (n := 100000) (k := 128) (j := 32) (V c main_v37) (V c main_v20) (V c main_v38) (V c main_v40) (V c main_v39)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x32) hz, View.ld_unit_zero (S := S1x32) hz, View.ld_unit_zero (S := S5000x32) hz]
  obtain ⟨e0, e1, e2, e3, e4, e5, e6, e7, e8, e9, e10, e11⟩ := index_facts t
  funext y
  obtain ⟨p, r, rfl⟩ : ∃ (p : Fin 5000) (r : Fin 32), y = ix2 p r := ⟨y 0, y 1, eq_ix2 y⟩
  have eo : ((cfg3.win 5).blk t).view.emb (ix2 p r) = ix2 (⟨t.val * 5000 + p.val, by have ht : t.val < 20 := t.isLt; have hp := p.isLt; omega⟩ : Fin 100000) r := by
    funext a; apply Fin.ext
    match a with
    | ⟨0, _⟩ => show win3_5.index t (0 : Fin 2) * 5000 + 1 * p.val = t.val * 5000 + p.val; omega
    | ⟨1, _⟩ => show win3_5.index t (1 : Fin 2) * 32 + 1 * r.val = r.val; omega
  have em0 : ∀ q : Fin 128, ((cfg3.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have em1 : ∀ q : Fin 128, ((cfg3.win 1).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  have ew2 : ∀ q : Fin 128, ((cfg3.win 2).blk t).view.emb (ix2 q r) = ix2 q r := fun q => by
    funext a; apply Fin.ext
    match a with
    | ⟨0, _⟩ => show win3_2.index t (0 : Fin 2) * 128 + 1 * q.val = q.val; omega
    | ⟨1, _⟩ => show win3_2.index t (1 : Fin 2) * 32 + 1 * r.val = r.val; omega
  have eb3 : ((cfg3.win 3).blk t).view.emb (ix2 (0 : Fin 1) r) = ix2 (0 : Fin 1) r := by
    funext a; apply Fin.ext
    match a with
    | ⟨0, _⟩ => show win3_3.index t (0 : Fin 2) * 1 + 1 * 0 = 0; omega
    | ⟨1, _⟩ => show win3_3.index t (1 : Fin 2) * 32 + 1 * r.val = r.val; omega
  have ew4 : ∀ q : Fin 128, ((cfg3.win 4).blk t).view.emb (ix2 q r) = ix2 q r := fun q => by
    funext a; apply Fin.ext
    match a with
    | ⟨0, _⟩ => show win3_4.index t (0 : Fin 2) * 128 + 1 * q.val = q.val; omega
    | ⟨1, _⟩ => show win3_4.index t (1 : Fin 2) * 32 + 1 * r.val = r.val; omega
  refine (Payloads.pay3 (iblk3 V c 0 t) (iblk3 V c 1 t) (iblk3 V c 2 t) (iblk3 V c 4 t) (iblk3 V c 3 t) p r).trans ?_
  show combine (n := 5000) (k := 128) (j := 32) (iblk3 V c 0 t) (iblk3 V c 1 t) (iblk3 V c 2 t) (iblk3 V c 3 t) (iblk3 V c 4 t) (ix2 p r) = (combine (n := 100000) (k := 128) (j := 32) (V c main_v37) (V c main_v20) (V c main_v38) (V c main_v40) (V c main_v39)) (((cfg3.win 5).blk t).view.emb (ix2 p r))
  rw [eo, combine_ix2, combine_ix2]
  unfold prodAt
  refine congrArg₂ (fun u v : EReal => u + v) (congrArg₂ (fun u v : EReal => u + v) (Finset.sum_congr rfl fun q _ => congrArg₂ (fun u v : EReal => u * v) ?_ ?_) ?_) (Finset.sum_congr rfl fun q _ => congrArg₂ (fun u v : EReal => u * v) ?_ ?_)
  · exact congrArg (V c main_v37) (em0 q)
  · exact congrArg (V c main_v38) (ew2 q)
  · exact congrArg (V c main_v40) eb3
  · exact congrArg (V c main_v20) (em1 q)
  · exact congrArg (V c main_v39) (ew4 q)

/-- An index of the output array is in point `t`'s block iff its row is in `[5000 t, 5000 t + 5000)` (and its column
    in the one column block). -/
theorem mem_blk (t : Fin cfg3.N) (i : S100000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole main_v41).slice (win3_5.rect t)).set ↔ _
  rw [View.set_slice_whole, Rect.mem_set_unit]
  exact Iff.rfl

/-- Every row lies in the block of the point `row / 5000`. -/
theorem cover (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  refine ⟨⟨(i 0).val / 5000, by show (i 0).val / 5000 < 20; omega⟩, flush3_5 _, ?_⟩
  rw [mem_blk]
  obtain ⟨e0, e1, e2, e3, e4, e5, e6, e7, e8, e9, e10, e11⟩ := index_facts ⟨(i 0).val / 5000, by show (i 0).val / 5000 < 20; omega⟩
  intro a
  match a with
  | ⟨0, _⟩ => show win3_5.index _ (0 : Fin 2) * 5000 ≤ (i 0).val ∧ (i 0).val < win3_5.index _ (0 : Fin 2) * 5000 + 5000; rw [e10]; show (i 0).val / 5000 * 5000 ≤ (i 0).val ∧ (i 0).val < (i 0).val / 5000 * 5000 + 5000; omega
  | ⟨1, _⟩ => show win3_5.index _ (1 : Fin 2) * 32 ≤ (i 1).val ∧ (i 1).val < win3_5.index _ (1 : Fin 2) * 32 + 32; rw [e11]; omega

/-- The output array when the region is left: the stage of the arrays the region found. -/
theorem value (c : Dev nD) : (dat3 V c).arrAt 5 cfg3.N = (combine (n := 100000) (k := 128) (j := 32) (V c main_v37) (V c main_v20) (V c main_v38) (V c main_v40) (V c main_v39)) :=
  (dat3 V c).arrAt_eq_of_cover 5 _ (fun t _ => flushed_eq V c t) (cover)

end Cert.KernelIdeal.Region3

end
-- ==== Proof.Region4.lean ====
/-
  Region 4: what its output array holds when the region is left.

  The region walks twenty grid points; point `t` reads rows `5000 t … 5000 t + 4999` of its row-tiled operands, the
  whole weight matrices and the bias row, and writes rows `5000 t … 5000 t + 4999` of the result.  The stage computed
  (max (x · w + b) 0 of the node features `main_v41`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point `t` writes back is block `t` of the stage applied to the whole arrays. -/
theorem flushed_eq (c : Dev nD) (t : Fin cfg4.N) :
    (dat4 V c).flushed 3 t = ((cfg4.win 3).blk t).view.read (Elt Ideal) (project (n := 100000) (k := 32) (j := 32) (V c main_v41) (V c main_v42) (V c main_v43)) := by
  show (cfg4.win 3).cut (grid4.coords t) ((dat4 V c).after 3 t) = _
  rw [after4_3]
  unfold out4_3
  rw [View.canon_unit_zero hz]
  simp only [View.ld_unit_zero (S := S5000x32) hz, View.ld_unit_zero (S := S32x32) hz, View.ld_unit_zero (S := S1x32) hz]
  obtain ⟨e0, e1, e2, e3, e4, e5, e6, e7⟩ := index_facts t
  funext y
  obtain ⟨p, r, rfl⟩ : ∃ (p : Fin 5000) (r : Fin 32), y = ix2 p r := ⟨y 0, y 1, eq_ix2 y⟩
  have eo : ((cfg4.win 3).blk t).view.emb (ix2 p r) = ix2 (⟨t.val * 5000 + p.val, by have ht : t.val < 20 := t.isLt; have hp := p.isLt; omega⟩ : Fin 100000) r := by
    funext a; apply Fin.ext
    match a with
    | ⟨0, _⟩ => show win4_3.index t (0 : Fin 2) * 5000 + 1 * p.val = t.val * 5000 + p.val; omega
    | ⟨1, _⟩ => show win4_3.index t (1 : Fin 2) * 32 + 1 * r.val = r.val; omega
  have em0 : ∀ q : Fin 32, ((cfg4.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win4_0.index t (0 : Fin 2) * 5000 + 1 * p.val = t.val * 5000 + p.val; omega
    | ⟨1, _⟩ => show win4_0.index t (1 : Fin 2) * 32 + 1 * q.val = q.val; omega
  have ew1 : ∀ q : Fin 32, ((cfg4.win 1).blk t).view.emb (ix2 q r) = ix2 q r := fun q => by
    funext a; apply Fin.ext
    match a with
    | ⟨0, _⟩ => show win4_1.index t (0 : Fin 2) * 32 + 1 * q.val = q.val; omega
    | ⟨1, _⟩ => show win4_1.index t (1 : Fin 2) * 32 + 1 * r.val = r.val; omega
  have eb2 : ((cfg4.win 2).blk t).view.emb (ix2 (0 : Fin 1) r) = ix2 (0 : Fin 1) r := by
    funext a; apply Fin.ext
    match a with
    | ⟨0, _⟩ => show win4_2.index t (0 : Fin 2) * 1 + 1 * 0 = 0; omega
    | ⟨1, _⟩ => show win4_2.index t (1 : Fin 2) * 32 + 1 * r.val = r.val; omega
  refine (Payloads.pay4 (iblk4 V c 0 t) (iblk4 V c 1 t) (iblk4 V c 2 t) p r).trans ?_
  show project (n := 5000) (k := 32) (j := 32) (iblk4 V c 0 t) (iblk4 V c 1 t) (iblk4 V c 2 t) (ix2 p r) = (project (n := 100000) (k := 32) (j := 32) (V c main_v41) (V c main_v42) (V c main_v43)) (((cfg4.win 3).blk t).view.emb (ix2 p r))
  rw [eo, project_ix2, project_ix2]
  unfold prodAt
  refine congrArg (fun u : EReal => max u 0) (congrArg₂ (fun u v : EReal => u + v) (Finset.sum_congr rfl fun q _ => congrArg₂ (fun u v : EReal => u * v) ?_ ?_) ?_)
  · exact congrArg (V c main_v41) (em0 q)
  · exact congrArg (V c main_v42) (ew1 q)
  · exact congrArg (V c main_v43) eb2

/-- An index of the output array is in point `t`'s block iff its row is in `[5000 t, 5000 t + 5000)` (and its column
    in the one column block). -/
theorem mem_blk (t : Fin cfg4.N) (i : S100000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v44).slice (win4_3.rect t)).set ↔ _
  rw [View.set_slice_whole, Rect.mem_set_unit]
  exact Iff.rfl

/-- Every row lies in the block of the point `row / 5000`. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  refine ⟨⟨(i 0).val / 5000, by show (i 0).val / 5000 < 20; omega⟩, flush4_3 _, ?_⟩
  rw [mem_blk]
  obtain ⟨e0, e1, e2, e3, e4, e5, e6, e7⟩ := index_facts ⟨(i 0).val / 5000, by show (i 0).val / 5000 < 20; omega⟩
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 32 ≤ (i 1).val ∧ (i 1).val < win4_3.index _ (1 : Fin 2) * 32 + 32; rw [e7]; omega

/-- The output array when the region is left: the stage of the arrays the region found. -/
theorem value (c : Dev nD) : (dat4 V c).arrAt 3 cfg4.N = (project (n := 100000) (k := 32) (j := 32) (V c main_v41) (V c main_v42) (V c main_v43)) :=
  (dat4 V c).arrAt_eq_of_cover 3 _ (fun t _ => flushed_eq V c t) (cover)

end Cert.KernelIdeal.Region4

end
-- ==== Proof.Region5.lean ====
/-
  Region 5: what its output array holds when the region is left.

  The region walks twenty grid points; point `t` reads rows `5000 t … 5000 t + 4999` of its row-tiled operands, the
  whole weight matrices and the bias row, and writes rows `5000 t … 5000 t + 4999` of the result.  The stage computed
  (max (· ) 0 of (a · wl + b) + x · wr of the aggregate `main_v58` and the node features `main_v41`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

set_option maxHeartbeats 3200000 in
/-- What point `t` writes back is block `t` of the stage applied to the whole arrays. -/
theorem flushed_eq (c : Dev nD) (t : Fin cfg5.N) :
    (dat5 V c).flushed 5 t = ((cfg5.win 5).blk t).view.read (Elt Ideal) (combineRelu (n := 100000) (k := 32) (j := 128) (V c main_v58) (V c main_v41) (V c main_v59) (V c main_v61) (V c main_v60)) := by
  show (cfg5.win 5).cut (grid5.coords t) ((dat5 V c).after 5 t) = _
  rw [after5_5]
  unfold out5_5
  rw [View.canon_unit_zero hz]
  simp only [View.ld_unit_zero (S := S5000x32) hz, View.ld_unit_zero (S := S32x128) hz, View.ld_unit_zero (S := S1x128) hz, View.ld_unit_zero (S := S5000x128) hz]
  obtain ⟨e0, e1, e2, e3, e4, e5, e6, e7, e8, e9, e10, e11⟩ := index_facts t
  funext y
  obtain ⟨p, r, rfl⟩ : ∃ (p : Fin 5000) (r : Fin 128), y = ix2 p r := ⟨y 0, y 1, eq_ix2 y⟩
  have eo : ((cfg5.win 5).blk t).view.emb (ix2 p r) = ix2 (⟨t.val * 5000 + p.val, by have ht : t.val < 20 := t.isLt; have hp := p.isLt; omega⟩ : Fin 100000) r := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * r.val = r.val; omega
  have em0 : ∀ q : Fin 32, ((cfg5.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win5_0.index t (0 : Fin 2) * 5000 + 1 * p.val = t.val * 5000 + p.val; omega
    | ⟨1, _⟩ => show win5_0.index t (1 : Fin 2) * 32 + 1 * q.val = q.val; omega
  have em1 : ∀ q : Fin 32, ((cfg5.win 1).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win5_1.index t (0 : Fin 2) * 5000 + 1 * p.val = t.val * 5000 + p.val; omega
    | ⟨1, _⟩ => show win5_1.index t (1 : Fin 2) * 32 + 1 * q.val = q.val; omega
  have ew2 : ∀ q : Fin 32, ((cfg5.win 2).blk t).view.emb (ix2 q r) = ix2 q r := fun q => by
    funext a; apply Fin.ext
    match a with
    | ⟨0, _⟩ => show win5_2.index t (0 : Fin 2) * 32 + 1 * q.val = q.val; omega
    | ⟨1, _⟩ => show win5_2.index t (1 : Fin 2) * 128 + 1 * r.val = r.val; omega
  have eb3 : ((cfg5.win 3).blk t).view.emb (ix2 (0 : Fin 1) r) = ix2 (0 : Fin 1) r := by
    funext a; apply Fin.ext
    match a with
    | ⟨0, _⟩ => show win5_3.index t (0 : Fin 2) * 1 + 1 * 0 = 0; omega
    | ⟨1, _⟩ => show win5_3.index t (1 : Fin 2) * 128 + 1 * r.val = r.val; omega
  have ew4 : ∀ q : Fin 32, ((cfg5.win 4).blk t).view.emb (ix2 q r) = ix2 q r := fun q => by
    funext a; apply Fin.ext
    match a with
    | ⟨0, _⟩ => show win5_4.index t (0 : Fin 2) * 32 + 1 * q.val = q.val; omega
    | ⟨1, _⟩ => show win5_4.index t (1 : Fin 2) * 128 + 1 * r.val = r.val; omega
  refine (Payloads.pay5 (iblk5 V c 0 t) (iblk5 V c 1 t) (iblk5 V c 2 t) (iblk5 V c 4 t) (iblk5 V c 3 t) p r).trans ?_
  show combineRelu (n := 5000) (k := 32) (j := 128) (iblk5 V c 0 t) (iblk5 V c 1 t) (iblk5 V c 2 t) (iblk5 V c 3 t) (iblk5 V c 4 t) (ix2 p r) = (combineRelu (n := 100000) (k := 32) (j := 128) (V c main_v58) (V c main_v41) (V c main_v59) (V c main_v61) (V c main_v60)) (((cfg5.win 5).blk t).view.emb (ix2 p r))
  rw [eo, combineRelu_ix2, combineRelu_ix2]
  unfold prodAt
  refine congrArg (fun u : EReal => max u 0) (congrArg₂ (fun u v : EReal => u + v) (congrArg₂ (fun u v : EReal => u + v) (Finset.sum_congr rfl fun q _ => congrArg₂ (fun u v : EReal => u * v) ?_ ?_) ?_) (Finset.sum_congr rfl fun q _ => congrArg₂ (fun u v : EReal => u * v) ?_ ?_))
  · exact congrArg (V c main_v58) (em0 q)
  · exact congrArg (V c main_v59) (ew2 q)
  · exact congrArg (V c main_v61) eb3
  · exact congrArg (V c main_v41) (em1 q)
  · exact congrArg (V c main_v60) (ew4 q)

/-- An index of the output array is in point `t`'s block iff its row is in `[5000 t, 5000 t + 5000)` (and its column
    in the one column block). -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v62).slice (win5_5.rect t)).set ↔ _
  rw [View.set_slice_whole, Rect.mem_set_unit]
  exact Iff.rfl

/-- Every row lies in the block of the point `row / 5000`. -/
theorem cover (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  refine ⟨⟨(i 0).val / 5000, by show (i 0).val / 5000 < 20; omega⟩, flush5_5 _, ?_⟩
  rw [mem_blk]
  obtain ⟨e0, e1, e2, e3, e4, e5, e6, e7, e8, e9, e10, e11⟩ := index_facts ⟨(i 0).val / 5000, by show (i 0).val / 5000 < 20; omega⟩
  intro a
  match a with
  | ⟨0, _⟩ => show win5_5.index _ (0 : Fin 2) * 5000 ≤ (i 0).val ∧ (i 0).val < win5_5.index _ (0 : Fin 2) * 5000 + 5000; rw [e10]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e11]; omega

/-- The output array when the region is left: the stage of the arrays the region found. -/
theorem value (c : Dev nD) : (dat5 V c).arrAt 5 cfg5.N = (combineRelu (n := 100000) (k := 32) (j := 128) (V c main_v58) (V c main_v41) (V c main_v59) (V c main_v61) (V c main_v60)) :=
  (dat5 V c).arrAt_eq_of_cover 5 _ (fun t _ => flushed_eq V c t) (cover)

end Cert.KernelIdeal.Region5

end
-- ==== Proof.Region6.lean ====
/-
  Region 6: what its output array holds when the region is left.

  The region walks twenty grid points; point `t` reads rows `5000 t … 5000 t + 4999` of its row-tiled operands, the
  whole weight matrices and the bias row, and writes rows `5000 t … 5000 t + 4999` of the result.  The stage computed
  (max (x · w + b) 0 of the node features `main_v62`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point `t` writes back is block `t` of the stage applied to the whole arrays. -/
theorem flushed_eq (c : Dev nD) (t : Fin cfg6.N) :
    (dat6 V c).flushed 3 t = ((cfg6.win 3).blk t).view.read (Elt Ideal) (project (n := 100000) (k := 128) (j := 128) (V c main_v62) (V c main_v63) (V c main_v64)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := index_facts t
  funext y
  obtain ⟨p, r, rfl⟩ : ∃ (p : Fin 5000) (r : Fin 128), y = ix2 p r := ⟨y 0, y 1, eq_ix2 y⟩
  have eo : ((cfg6.win 3).blk t).view.emb (ix2 p r) = ix2 (⟨t.val * 5000 + p.val, by have ht : t.val < 20 := t.isLt; have hp := p.isLt; omega⟩ : Fin 100000) r := by
    funext a; apply Fin.ext
    match a with
    | ⟨0, _⟩ => show win6_3.index t (0 : Fin 2) * 5000 + 1 * p.val = t.val * 5000 + p.val; omega
    | ⟨1, _⟩ => show win6_3.index t (1 : Fin 2) * 128 + 1 * r.val = r.val; omega
  have em0 : ∀ q : Fin 128, ((cfg6.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win6_0.index t (0 : Fin 2) * 5000 + 1 * p.val = t.val * 5000 + p.val; omega
    | ⟨1, _⟩ => show win6_0.index t (1 : Fin 2) * 128 + 1 * q.val = q.val; omega
  have ew1 : ∀ q : Fin 128, ((cfg6.win 1).blk t).view.emb (ix2 q r) = ix2 q r := fun q => by
    funext a; apply Fin.ext
    match a with
    | ⟨0, _⟩ => show win6_1.index t (0 : Fin 2) * 128 + 1 * q.val = q.val; omega
    | ⟨1, _⟩ => show win6_1.index t (1 : Fin 2) * 128 + 1 * r.val = r.val; omega
  have eb2 : ((cfg6.win 2).blk t).view.emb (ix2 (0 : Fin 1) r) = ix2 (0 : Fin 1) r := by
    funext a; apply Fin.ext
    match a with
    | ⟨0, _⟩ => show win6_2.index t (0 : Fin 2) * 1 + 1 * 0 = 0; omega
    | ⟨1, _⟩ => show win6_2.index t (1 : Fin 2) * 128 + 1 * r.val = r.val; omega
  refine (Payloads.pay6 (iblk6 V c 0 t) (iblk6 V c 1 t) (iblk6 V c 2 t) p r).trans ?_
  show project (n := 5000) (k := 128) (j := 128) (iblk6 V c 0 t) (iblk6 V c 1 t) (iblk6 V c 2 t) (ix2 p r) = (project (n := 100000) (k := 128) (j := 128) (V c main_v62) (V c main_v63) (V c main_v64)) (((cfg6.win 3).blk t).view.emb (ix2 p r))
  rw [eo, project_ix2, project_ix2]
  unfold prodAt
  refine congrArg (fun u : EReal => max u 0) (congrArg₂ (fun u v : EReal => u + v) (Finset.sum_congr rfl fun q _ => congrArg₂ (fun u v : EReal => u * v) ?_ ?_) ?_)
  · exact congrArg (V c main_v62) (em0 q)
  · exact congrArg (V c main_v63) (ew1 q)
  · exact congrArg (V c main_v64) eb2

/-- An index of the output array is in point `t`'s block iff its row is in `[5000 t, 5000 t + 5000)` (and its column
    in the one column block). -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v65).slice (win6_3.rect t)).set ↔ _
  rw [View.set_slice_whole, Rect.mem_set_unit]
  exact Iff.rfl

/-- Every row lies in the block of the point `row / 5000`. -/
theorem cover (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  refine ⟨⟨(i 0).val / 5000, by show (i 0).val / 5000 < 20; omega⟩, flush6_3 _, ?_⟩
  rw [mem_blk]
  obtain ⟨e0, e1, e2, e3, e4, e5, e6, e7⟩ := index_facts ⟨(i 0).val / 5000, by show (i 0).val / 5000 < 20; omega⟩
  intro a
  match a with
  | ⟨0, _⟩ => show win6_3.index _ (0 : Fin 2) * 5000 ≤ (i 0).val ∧ (i 0).val < win6_3.index _ (0 : Fin 2) * 5000 + 5000; rw [e6]; show (i 0).val / 5000 * 5000 ≤ (i 0).val ∧ (i 0).val < (i 0).val / 5000 * 5000 + 5000; omega
  | ⟨1, _⟩ => show win6_3.index _ (1 : Fin 2) * 128 ≤ (i 1).val ∧ (i 1).val < win6_3.index _ (1 : Fin 2) * 128 + 128; rw [e7]; omega

/-- The output array when the region is left: the stage of the arrays the region found. -/
theorem value (c : Dev nD) : (dat6 V c).arrAt 3 cfg6.N = (project (n := 100000) (k := 128) (j := 128) (V c main_v62) (V c main_v63) (V c main_v64)) :=
  (dat6 V c).arrAt_eq_of_cover 3 _ (fun t _ => flushed_eq V c t) (cover)

end Cert.KernelIdeal.Region6

end
-- ==== Proof.Region7.lean ====
/-
  Region 7: what its output array holds when the region is left.

  The region walks twenty grid points; point `t` reads rows `5000 t … 5000 t + 4999` of its row-tiled operands, the
  whole weight matrices and the bias row, and writes rows `5000 t … 5000 t + 4999` of the result.  The stage computed
  ((a · wl + b) + x · wr of the aggregate `main_v79` and the node features `main_v62`) reads row `r` of the result from row `r` of the operands only, so the block
  point `t` writes back is block `t` of the stage applied to the WHOLE arrays; the twenty blocks tile the 100000
  rows, so the output array ends as the stage of the arrays the region found.  Stated for any contents `V` at the
  region's entry.
-/
import proofs.«177831_j51780125720795_1_alg».proof.Proof.Gen.KernelIdeal.Frame
import proofs.«177831_j51780125720795_1_alg».proof.Proof.Payloads
import proofs.«177831_j51780125720795_1_alg».proof.Proof.Spec
import Idealize.ShloMosaic.Lib.Pipeline.Value
import Idealize.ShloMosaic.Lib.ValueIdx

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the weights and the bias at
    block `(0, 0)`. -/
theorem index_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0 :=
  (by decide +kernel : ∀ t : Fin grid7.N, _)

set_option maxHeartbeats 3200000 in
/-- What point `t` writes back is block `t` of the stage applied to the whole arrays. -/
theorem flushed_eq (c : Dev nD) (t : Fin cfg7.N) :
    (dat7 V c).flushed 5 t = ((cfg7.win 5).blk t).view.read (Elt Ideal) (combine (n := 100000) (k := 128) (j := 64) (V c main_v79) (V c main_v62) (V c main_v80) (V c main_v82) (V c main_v81)) := by
  show (cfg7.win 5).cut (grid7.coords t) ((dat7 V c).after 5 t) = _
  rw [after7_5]
  unfold out7_5
  rw [View.canon_unit_zero hz]
  simp only [View.ld_unit_zero (S := S5000x128) hz, View.ld_unit_zero (S := S128x64) hz, View.ld_unit_zero (S := S1x64) hz, View.ld_unit_zero (S := S5000x64) hz]
  obtain ⟨e0, e1, e2, e3, e4, e5, e6, e7, e8, e9, e10, e11⟩ := index_facts t
  funext y
  obtain ⟨p, r, rfl⟩ : ∃ (p : Fin 5000) (r : Fin 64), y = ix2 p r := ⟨y 0, y 1, eq_ix2 y⟩
  have eo : ((cfg7.win 5).blk t).view.emb (ix2 p r) = ix2 (⟨t.val * 5000 + p.val, by have ht : t.val < 20 := t.isLt; have hp := p.isLt; omega⟩ : Fin 100000) r := by
    funext a; apply Fin.ext
    match a with
    | ⟨0, _⟩ => show win7_5.index t (0 : Fin 2) * 5000 + 1 * p.val = t.val * 5000 + p.val; omega
    | ⟨1, _⟩ => show win7_5.index t (1 : Fin 2) * 64 + 1 * r.val = r.val; omega
  have em0 : ∀ q : Fin 128, ((cfg7.win 0).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win7_0.index t (0 : Fin 2) * 5000 + 1 * p.val = t.val * 5000 + p.val; omega
    | ⟨1, _⟩ => show win7_0.index t (1 : Fin 2) * 128 + 1 * q.val = q.val; omega
  have em1 : ∀ q : Fin 128, ((cfg7.win 1).blk t).view.emb (ix2 p q) = ix2 (⟨t.val * 5000 + p.val, by have ht : t.val < 20 := t.isLt; have hp := p.isLt; omega⟩ : Fin 100000) q := fun q => by
    funext a; apply Fin.ext
    match a with
    | ⟨0, _⟩ => show win7_1.index t (0 : Fin 2) * 5000 + 1 * p.val = t.val * 5000 + p.val; omega
    | ⟨1, _⟩ => show win7_1.index t (1 : Fin 2) * 128 + 1 * q.val = q.val; omega
  have ew2 : ∀ q : Fin 128, ((cfg7.win 2).blk t).view.emb (ix2 q r) = ix2 q r := fun q => by
    funext a; apply Fin.ext
    match a with
    | ⟨0, _⟩ => show win7_2.index t (0 : Fin 2) * 128 + 1 * q.val = q.val; omega
    | ⟨1, _⟩ => show win7_2.index t (1 : Fin 2) * 64 + 1 * r.val = r.val; omega
  have eb3 : ((cfg7.win 3).blk t).view.emb (ix2 (0 : Fin 1) r) = ix2 (0 : Fin 1) r := by
    funext a; apply Fin.ext
    match a with
    | ⟨0, _⟩ => show win7_3.index t (0 : Fin 2) * 1 + 1 * 0 = 0; omega
    | ⟨1, _⟩ => show win7_3.index t (1 : Fin 2) * 64 + 1 * r.val = r.val; omega
  have ew4 : ∀ q : Fin 128, ((cfg7.win 4).blk t).view.emb (ix2 q r) = ix2 q r := fun q => by
    funext a; apply Fin.ext
    match a with
    | ⟨0, _⟩ => show win7_4.index t (0 : Fin 2) * 128 + 1 * q.val = q.val; omega
    | ⟨1, _⟩ => show win7_4.index t (1 : Fin 2) * 64 + 1 * r.val = r.val; omega
  refine (Payloads.pay7 (iblk7 V c 0 t) (iblk7 V c 1 t) (iblk7 V c 2 t) (iblk7 V c 4 t) (iblk7 V c 3 t) p r).trans ?_
  show combine (n := 5000) (k := 128) (j := 64) (iblk7 V c 0 t) (iblk7 V c 1 t) (iblk7 V c 2 t) (iblk7 V c 3 t) (iblk7 V c 4 t) (ix2 p r) = (combine (n := 100000) (k := 128) (j := 64) (V c main_v79) (V c main_v62) (V c main_v80) (V c main_v82) (V c main_v81)) (((cfg7.win 5).blk t).view.emb (ix2 p r))
  rw [eo, combine_ix2, combine_ix2]
  unfold prodAt
  refine congrArg₂ (fun u v : EReal => u + v) (congrArg₂ (fun u v : EReal => u + v) (Finset.sum_congr rfl fun q _ => congrArg₂ (fun u v : EReal => u * v) ?_ ?_) ?_) (Finset.sum_congr rfl fun q _ => congrArg₂ (fun u v : EReal => u * v) ?_ ?_)
  · exact congrArg (V c main_v79) (em0 q)
  · exact congrArg (V c main_v80) (ew2 q)
  · exact congrArg (V c main_v82) eb3
  · exact congrArg (V c main_v62) (em1 q)
  · exact congrArg (V c main_v81) (ew4 q)

/-- An index of the output array is in point `t`'s block iff its row is in `[5000 t, 5000 t + 5000)` (and its column
    in the one column block). -/
theorem mem_blk (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v83).slice (win7_5.rect t)).set ↔ _
  rw [View.set_slice_whole, Rect.mem_set_unit]
  exact Iff.rfl

/-- Every row lies in the block of the point `row / 5000`. -/
theorem cover (i : S100000x64.Idx) : ∃ t : Fin cfg7.N, (cfg7.win 5).flush t = true ∧ i ∈ ((cfg7.win 5).blk t).view.set := by
  have hi0 : (i 0).val < 100000 := (i 0).isLt
  have hi1 : (i 1).val < 64 := (i 1).isLt
  refine ⟨⟨(i 0).val / 5000, by show (i 0).val / 5000 < 20; omega⟩, flush7_5 _, ?_⟩
  rw [mem_blk]
  obtain ⟨e0, e1, e2, e3, e4, e5, e6, e7, e8, e9, e10, e11⟩ := index_facts ⟨(i 0).val / 5000, by show (i 0).val / 5000 < 20; omega⟩
  intro a
  match a with
  | ⟨0, _⟩ => show win7_5.index _ (0 : Fin 2) * 5000 ≤ (i 0).val ∧ (i 0).val < win7_5.index _ (0 : Fin 2) * 5000 + 5000; rw [e10]; show (i 0).val / 5000 * 5000 ≤ (i 0).val ∧ (i 0).val < (i 0).val / 5000 * 5000 + 5000; omega
  | ⟨1, _⟩ => show win7_5.index _ (1 : Fin 2) * 64 ≤ (i 1).val ∧ (i 1).val < win7_5.index _ (1 : Fin 2) * 64 + 64; rw [e11]; omega

/-- The output array when the region is left: the stage of the arrays the region found. -/
theorem value (c : Dev nD) : (dat7 V c).arrAt 5 cfg7.N = (combine (n := 100000) (k := 128) (j := 64) (V c main_v79) (V c main_v62) (V c main_v80) (V c main_v82) (V c main_v81)) :=
  (dat7 V c).arrAt_eq_of_cover 5 _ (fun t _ => flushed_eq V c t) (cover)

end Cert.KernelIdeal.Region7

end
-- ==== Proof.Chain.lean ====
/-
  The network as one chain of functions of the argument arrays.

  Four graph-convolution layers follow one another.  A layer projects its input node features
  (`project`: a dense layer and `max · 0`), sums the projected rows over the incoming edges (`agg…`), and combines the
  sum with the layer's own input (`combine`, after the first and third layer followed by `max · 0`).  The weights
  enter transposed and the biases as one row; both are the host's layout operations of the argument arrays.
  The two results are the second layer's output `z` and the fourth layer's output `xrec`.
-/
import proofs.«177831_j51780125720795_1_alg».proof.Proof.Gen.KernelIdeal
import proofs.«177831_j51780125720795_1_alg».proof.Proof.Spec

noncomputable section

namespace Cert.KernelIdeal.Chain

open Cert.KernelIdeal Idealize.ShloMosaic Cert.Sage
open Cert.KernelIdeal.Facts₀ Cert.KernelIdeal.Facts

/-- The twenty-two argument arrays: the node features, the edge list, and five arrays per layer (the projection's
    weight and bias, the neighbour weight and its bias, the root weight). -/
structure Args where
  x0 : (⟨S100000x64, .f32⟩ : BufTy).Contents (Elt Ideal)
  x1 : (⟨S2x1600000, .i32⟩ : BufTy).Contents (Elt Ideal)
  x2 : (⟨S64x64, .f32⟩ : BufTy).Contents (Elt Ideal)
  x3 : (⟨S64, .f32⟩ : BufTy).Contents (Elt Ideal)
  x4 : (⟨S128x64, .f32⟩ : BufTy).Contents (Elt Ideal)
  x5 : (⟨S128, .f32⟩ : BufTy).Contents (Elt Ideal)
  x6 : (⟨S128x64, .f32⟩ : BufTy).Contents (Elt Ideal)
  x7 : (⟨S128x128, .f32⟩ : BufTy).Contents (Elt Ideal)
  x8 : (⟨S128, .f32⟩ : BufTy).Contents (Elt Ideal)
  x9 : (⟨S32x128, .f32⟩ : BufTy).Contents (Elt Ideal)
  x10 : (⟨S32, .f32⟩ : BufTy).Contents (Elt Ideal)
  x11 : (⟨S32x128, .f32⟩ : BufTy).Contents (Elt Ideal)
  x12 : (⟨S32x32, .f32⟩ : BufTy).Contents (Elt Ideal)
  x13 : (⟨S32, .f32⟩ : BufTy).Contents (Elt Ideal)
  x14 : (⟨S128x32, .f32⟩ : BufTy).Contents (Elt Ideal)
  x15 : (⟨S128, .f32⟩ : BufTy).Contents (Elt Ideal)
  x16 : (⟨S128x32, .f32⟩ : BufTy).Contents (Elt Ideal)
  x17 : (⟨S128x128, .f32⟩ : BufTy).Contents (Elt Ideal)
  x18 : (⟨S128, .f32⟩ : BufTy).Contents (Elt Ideal)
  x19 : (⟨S64x128, .f32⟩ : BufTy).Contents (Elt Ideal)
  x20 : (⟨S64, .f32⟩ : BufTy).Contents (Elt Ideal)
  x21 : (⟨S64x128, .f32⟩ : BufTy).Contents (Elt Ideal)

/-- The sum over incoming edges, 64 features wide: every edge `e` reads the row of `h` named by the edge list's
    first row (a negative entry counted from the end), and adds it into the row named by the second row of an array
    of zeros.  The operations are the host's own, composed; both programs apply the same ones, and no proof opens them. -/
def agg64 (h : (⟨S100000x64, .f32⟩ : BufTy).Contents (Elt Ideal)) (ei : (⟨S2x1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (Host.gather gather_S100000x64_S1600000x1_S1600000x64_1_0_n_n_0_1_164 h
      (broadcastInDim S1600000x1 ![0] bcast_S1600000_S1600000x1_0
        (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
          (addi (shapeCast _ (extractStridedSlice S1x1600000 ![0, 0] ei slices_S2x1600000_S1x1600000_0_0) shapeCasts_S1x1600000_S1600000) (broadcastInDim S1600000 ![] bcast_S_S1600000 (constantI S_ 32 100000#32)))
          (shapeCast _ (extractStridedSlice S1x1600000 ![0, 0] ei slices_S2x1600000_S1x1600000_0_0) shapeCasts_S1x1600000_S1600000))))

/-- The sum over incoming edges, 128 features wide: every edge `e` reads the row of `h` named by the edge list's
    first row (a negative entry counted from the end), and adds it into the row named by the second row of an array
    of zeros.  The operations are the host's own, composed; both programs apply the same ones, and no proof opens them. -/
def agg128 (h : (⟨S100000x128, .f32⟩ : BufTy).Contents (Elt Ideal)) (ei : (⟨S2x1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
          (addi (shapeCast _ (extractStridedSlice S1x1600000 ![0, 0] ei slices_S2x1600000_S1x1600000_0_0) shapeCasts_S1x1600000_S1600000) (broadcastInDim S1600000 ![] bcast_S_S1600000 (constantI S_ 32 100000#32)))
          (shapeCast _ (extractStridedSlice S1x1600000 ![0, 0] ei slices_S2x1600000_S1x1600000_0_0) shapeCasts_S1x1600000_S1600000))))

/-- The sum over incoming edges, 32 features wide: every edge `e` reads the row of `h` named by the edge list's
    first row (a negative entry counted from the end), and adds it into the row named by the second row of an array
    of zeros.  The operations are the host's own, composed; both programs apply the same ones, and no proof opens them. -/
def agg32 (h : (⟨S100000x32, .f32⟩ : BufTy).Contents (Elt Ideal)) (ei : (⟨S2x1600000, .i32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (Host.gather gather_S100000x32_S1600000x1_S1600000x32_1_0_n_n_0_1_132 h
      (broadcastInDim S1600000x1 ![0] bcast_S1600000_S1600000x1_0
        (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
          (addi (shapeCast _ (extractStridedSlice S1x1600000 ![0, 0] ei slices_S2x1600000_S1x1600000_0_0) shapeCasts_S1x1600000_S1600000) (broadcastInDim S1600000 ![] bcast_S_S1600000 (constantI S_ 32 100000#32)))
          (shapeCast _ (extractStridedSlice S1x1600000 ![0, 0] ei slices_S2x1600000_S1x1600000_0_0) shapeCasts_S1x1600000_S1600000))))

variable (A : Args)

/-- Layer 1's projected features. -/
def p1 : (⟨S100000x64, .f32⟩ : BufTy).Contents (Elt Ideal) := project (n := 100000) (k := 64) (j := 64) A.x0 (transpose S64x64 [1, 0] A.x2 transposes_S64x64_S64x64_1_0) (shapeCast _ A.x3 shapeCasts_S64_S1x64)
/-- Layer 1's neighbour sums. -/
def s1 : (⟨S100000x64, .f32⟩ : BufTy).Contents (Elt Ideal) := agg64 (p1 A) A.x1
/-- Layer 1's output, after `max · 0`. -/
def h1 : (⟨S100000x128, .f32⟩ : BufTy).Contents (Elt Ideal) := combineRelu (n := 100000) (k := 64) (j := 128) (s1 A) A.x0 (transpose S64x128 [1, 0] A.x4 transposes_S128x64_S64x128_1_0) (shapeCast _ A.x5 shapeCasts_S128_S1x128) (transpose S64x128 [1, 0] A.x6 transposes_S128x64_S64x128_1_0)
/-- Layer 2's projected features. -/
def p2 : (⟨S100000x128, .f32⟩ : BufTy).Contents (Elt Ideal) := project (n := 100000) (k := 128) (j := 128) (h1 A) (transpose S128x128 [1, 0] A.x7 transposes_S128x128_S128x128_1_0) (shapeCast _ A.x8 shapeCasts_S128_S1x128)
/-- Layer 2's neighbour sums. -/
def s2 : (⟨S100000x128, .f32⟩ : BufTy).Contents (Elt Ideal) := agg128 (p2 A) A.x1
/-- Layer 2's output: the second result. -/
def z : (⟨S100000x32, .f32⟩ : BufTy).Contents (Elt Ideal) := combine (n := 100000) (k := 128) (j := 32) (s2 A) (h1 A) (transpose S128x32 [1, 0] A.x9 transposes_S32x128_S128x32_1_0) (shapeCast _ A.x10 shapeCasts_S32_S1x32) (transpose S128x32 [1, 0] A.x11 transposes_S32x128_S128x32_1_0)
/-- Layer 3's projected features. -/
def p3 : (⟨S100000x32, .f32⟩ : BufTy).Contents (Elt Ideal) := project (n := 100000) (k := 32) (j := 32) (z A) (transpose S32x32 [1, 0] A.x12 transposes_S32x32_S32x32_1_0) (shapeCast _ A.x13 shapeCasts_S32_S1x32)
/-- Layer 3's neighbour sums. -/
def s3 : (⟨S100000x32, .f32⟩ : BufTy).Contents (Elt Ideal) := agg32 (p3 A) A.x1
/-- Layer 3's output, after `max · 0`. -/
def h3 : (⟨S100000x128, .f32⟩ : BufTy).Contents (Elt Ideal) := combineRelu (n := 100000) (k := 32) (j := 128) (s3 A) (z A) (transpose S32x128 [1, 0] A.x14 transposes_S128x32_S32x128_1_0) (shapeCast _ A.x15 shapeCasts_S128_S1x128) (transpose S32x128 [1, 0] A.x16 transposes_S128x32_S32x128_1_0)
/-- Layer 4's projected features. -/
def p4 : (⟨S100000x128, .f32⟩ : BufTy).Contents (Elt Ideal) := project (n := 100000) (k := 128) (j := 128) (h3 A) (transpose S128x128 [1, 0] A.x17 transposes_S128x128_S128x128_1_0) (shapeCast _ A.x18 shapeCasts_S128_S1x128)
/-- Layer 4's neighbour sums. -/
def s4 : (⟨S100000x128, .f32⟩ : BufTy).Contents (Elt Ideal) := agg128 (p4 A) A.x1
/-- Layer 4's output: the first result. -/
def xrec : (⟨S100000x64, .f32⟩ : BufTy).Contents (Elt Ideal) := combine (n := 100000) (k := 128) (j := 64) (s4 A) (h3 A) (transpose S128x64 [1, 0] A.x19 transposes_S64x128_S128x64_1_0) (shapeCast _ A.x20 shapeCasts_S64_S1x64) (transpose S128x64 [1, 0] A.x21 transposes_S64x128_S128x64_1_0)

end Cert.KernelIdeal.Chain

end
-- ==== Proof.Fold.lean ====
/-
  The fold of the buffer contents through the sixteen segments, read at the buffers the results depend on.

  A host stretch leaves every buffer it does not write as it was, and gives each buffer it writes the composed
  value of its operations.  A region leaves every buffer but its output as it was, and its output array becomes the
  region's stage of the arrays it found (the eight `Region…` modules).  Walking the fold from the launch memory,
  every buffer a later segment reads is one of the chain's functions of the argument arrays; at the last boundary
  the two result buffers hold `Chain.xrec` and `Chain.z`.
-/
import proofs.«177831_j51780125720795_1_alg».proof.Proof.Gen.KernelIdeal.Frame
import proofs.«177831_j51780125720795_1_alg».proof.Proof.Region0
import proofs.«177831_j51780125720795_1_alg».proof.Proof.Region1
import proofs.«177831_j51780125720795_1_alg».proof.Proof.Region2
import proofs.«177831_j51780125720795_1_alg».proof.Proof.Region3
import proofs.«177831_j51780125720795_1_alg».proof.Proof.Region4
import proofs.«177831_j51780125720795_1_alg».proof.Proof.Region5
import proofs.«177831_j51780125720795_1_alg».proof.Proof.Region6
import proofs.«177831_j51780125720795_1_alg».proof.Proof.Region7
import proofs.«177831_j51780125720795_1_alg».proof.Proof.Chain
import Idealize.ShloMosaic.Lib.StableHlo.Run

set_option maxRecDepth 16384

noncomputable section

namespace Cert.KernelIdeal.Fold

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Chain Cert.Sage

variable (m : (ℓ : Loc nD τ sig) → Buf (Elt Ideal) ℓ) (ρ : Dev nD → PrngReg) (c : Dev nD)

/-- The argument arrays as launched on core `c`. -/
def args : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21)⟩

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]
/-- The buffers that must survive segments that do not write them: the arguments and the three layer outputs a
    later layer, or the caller, reads again. -/
abbrev keepRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_v20, main_v41, main_v62]

theorem mem_keep {b : Ref sig .tc} (hb : b ∈ argRefs) : b ∈ keepRefs := by
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl
  all_goals decide

theorem ne_live {b x : Ref sig .tc} (hb : b ∈ argRefs) (hx : x ∉ argRefs) : b ≠ x := by
  rintro rfl; exact hx hb

/-! ## What a segment leaves alone -/

/-- Stretch 0 writes none of the kept buffers. -/
theorem host0_keep (b : Ref sig .tc) (hb : b ∈ keepRefs) : W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 0 changes only its output array. -/
theorem reg0_keep (b : Ref sig .tc) (hb : b ∈ keepRefs) : W2 m ρ c (Proc.devRef .tc b) = W1 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))

/-- Stretch 1 writes none of the kept buffers. -/
theorem host1_keep (b : Ref sig .tc) (hb : b ∈ keepRefs) : W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 1 changes only its output array. -/
theorem reg1_keep (b : Ref sig .tc) (hb : b ∈ keepRefs) (hne : b ≠ main_v20) : W4 m ρ c (Proc.devRef .tc b) = W3 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact absurd rfl hne
    | exact W4_of_ne m ρ c _ (by decide)
    | exact (W4_arr m ρ c 1).trans (((dat1 (V3 m ρ) c).arrAt_in 1 rfl _).trans (A_eq1 (V3 m ρ) c 1))

/-- Stretch 2 writes none of the kept buffers. -/
theorem host2_keep (b : Ref sig .tc) (hb : b ∈ keepRefs) : W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 2 changes only its output array. -/
theorem reg2_keep (b : Ref sig .tc) (hb : b ∈ keepRefs) : W6 m ρ c (Proc.devRef .tc b) = W5 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W6_of_ne m ρ c _ (by decide)
    | exact (W6_arr m ρ c 0).trans (((dat2 (V5 m ρ) c).arrAt_in 0 rfl _).trans (A_eq2 (V5 m ρ) c 0))

/-- Stretch 3 writes none of the kept buffers. -/
theorem host3_keep (b : Ref sig .tc) (hb : b ∈ keepRefs) : W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 3 changes only its output array. -/
theorem reg3_keep (b : Ref sig .tc) (hb : b ∈ keepRefs) (hne : b ≠ main_v41) : W8 m ρ c (Proc.devRef .tc b) = W7 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact absurd rfl hne
    | exact W8_of_ne m ρ c _ (by decide)
    | exact (W8_arr m ρ c 1).trans (((dat3 (V7 m ρ) c).arrAt_in 1 rfl _).trans (A_eq3 (V7 m ρ) c 1))

/-- Stretch 4 writes none of the kept buffers. -/
theorem host4_keep (b : Ref sig .tc) (hb : b ∈ keepRefs) : W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 4 changes only its output array. -/
theorem reg4_keep (b : Ref sig .tc) (hb : b ∈ keepRefs) : W10 m ρ c (Proc.devRef .tc b) = W9 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W10_of_ne m ρ c _ (by decide)
    | exact (W10_arr m ρ c 0).trans (((dat4 (V9 m ρ) c).arrAt_in 0 rfl _).trans (A_eq4 (V9 m ρ) c 0))

/-- Stretch 5 writes none of the kept buffers. -/
theorem host5_keep (b : Ref sig .tc) (hb : b ∈ keepRefs) : W11 m ρ c (Proc.devRef .tc b) = W10 m ρ c (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 5 changes only its output array. -/
theorem reg5_keep (b : Ref sig .tc) (hb : b ∈ keepRefs) (hne : b ≠ main_v62) : W12 m ρ c (Proc.devRef .tc b) = W11 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact absurd rfl hne
    | exact W12_of_ne m ρ c _ (by decide)
    | exact (W12_arr m ρ c 1).trans (((dat5 (V11 m ρ) c).arrAt_in 1 rfl _).trans (A_eq5 (V11 m ρ) c 1))

/-- Stretch 6 writes none of the kept buffers. -/
theorem host6_keep (b : Ref sig .tc) (hb : b ∈ keepRefs) : W13 m ρ c (Proc.devRef .tc b) = W12 m ρ c (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 6 changes only its output array. -/
theorem reg6_keep (b : Ref sig .tc) (hb : b ∈ keepRefs) : W14 m ρ c (Proc.devRef .tc b) = W13 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W14_of_ne m ρ c _ (by decide)
    | exact (W14_arr m ρ c 0).trans (((dat6 (V13 m ρ) c).arrAt_in 0 rfl _).trans (A_eq6 (V13 m ρ) c 0))

/-- Stretch 7 writes none of the kept buffers. -/
theorem host7_keep (b : Ref sig .tc) (hb : b ∈ keepRefs) : W15 m ρ c (Proc.devRef .tc b) = W14 m ρ c (Proc.devRef .tc b) :=
  StableHlo.after_of_forall_not_mem (b := Proc.devRef .tc b) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact absurd hb (by decide))))

/-- Region 7 changes only its output array. -/
theorem reg7_keep (b : Ref sig .tc) (hb : b ∈ keepRefs) : W16 m ρ c (Proc.devRef .tc b) = W15 m ρ c (Proc.devRef .tc b) := by
  simp only [keepRefs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W16_of_ne m ρ c _ (by decide)
    | exact (W16_arr m ρ c 1).trans (((dat7 (V15 m ρ) c).arrAt_in 1 rfl _).trans (A_eq7 (V15 m ρ) c 1))

/-! ## The arguments at every boundary -/

theorem args0 (b : Ref sig .tc) (hb : b ∈ argRefs) : W0 m ρ c (Proc.devRef .tc b) = m ((c : Thread nD τ).loc b) := rfl
theorem args1 (b : Ref sig .tc) (hb : b ∈ argRefs) : W1 m ρ c (Proc.devRef .tc b) = m ((c : Thread nD τ).loc b) :=
  (host0_keep m ρ c b (mem_keep hb)).trans (args0 m ρ c b hb)
theorem args2 (b : Ref sig .tc) (hb : b ∈ argRefs) : W2 m ρ c (Proc.devRef .tc b) = m ((c : Thread nD τ).loc b) :=
  (reg0_keep m ρ c b (mem_keep hb)).trans (args1 m ρ c b hb)
theorem args3 (b : Ref sig .tc) (hb : b ∈ argRefs) : W3 m ρ c (Proc.devRef .tc b) = m ((c : Thread nD τ).loc b) :=
  (host1_keep m ρ c b (mem_keep hb)).trans (args2 m ρ c b hb)
theorem args4 (b : Ref sig .tc) (hb : b ∈ argRefs) : W4 m ρ c (Proc.devRef .tc b) = m ((c : Thread nD τ).loc b) :=
  (reg1_keep m ρ c b (mem_keep hb) (ne_live hb (by decide))).trans (args3 m ρ c b hb)
theorem args5 (b : Ref sig .tc) (hb : b ∈ argRefs) : W5 m ρ c (Proc.devRef .tc b) = m ((c : Thread nD τ).loc b) :=
  (host2_keep m ρ c b (mem_keep hb)).trans (args4 m ρ c b hb)
theorem args6 (b : Ref sig .tc) (hb : b ∈ argRefs) : W6 m ρ c (Proc.devRef .tc b) = m ((c : Thread nD τ).loc b) :=
  (reg2_keep m ρ c b (mem_keep hb)).trans (args5 m ρ c b hb)
theorem args7 (b : Ref sig .tc) (hb : b ∈ argRefs) : W7 m ρ c (Proc.devRef .tc b) = m ((c : Thread nD τ).loc b) :=
  (host3_keep m ρ c b (mem_keep hb)).trans (args6 m ρ c b hb)
theorem args8 (b : Ref sig .tc) (hb : b ∈ argRefs) : W8 m ρ c (Proc.devRef .tc b) = m ((c : Thread nD τ).loc b) :=
  (reg3_keep m ρ c b (mem_keep hb) (ne_live hb (by decide))).trans (args7 m ρ c b hb)
theorem args9 (b : Ref sig .tc) (hb : b ∈ argRefs) : W9 m ρ c (Proc.devRef .tc b) = m ((c : Thread nD τ).loc b) :=
  (host4_keep m ρ c b (mem_keep hb)).trans (args8 m ρ c b hb)
theorem args10 (b : Ref sig .tc) (hb : b ∈ argRefs) : W10 m ρ c (Proc.devRef .tc b) = m ((c : Thread nD τ).loc b) :=
  (reg4_keep m ρ c b (mem_keep hb)).trans (args9 m ρ c b hb)
theorem args11 (b : Ref sig .tc) (hb : b ∈ argRefs) : W11 m ρ c (Proc.devRef .tc b) = m ((c : Thread nD τ).loc b) :=
  (host5_keep m ρ c b (mem_keep hb)).trans (args10 m ρ c b hb)
theorem args12 (b : Ref sig .tc) (hb : b ∈ argRefs) : W12 m ρ c (Proc.devRef .tc b) = m ((c : Thread nD τ).loc b) :=
  (reg5_keep m ρ c b (mem_keep hb) (ne_live hb (by decide))).trans (args11 m ρ c b hb)
theorem args13 (b : Ref sig .tc) (hb : b ∈ argRefs) : W13 m ρ c (Proc.devRef .tc b) = m ((c : Thread nD τ).loc b) :=
  (host6_keep m ρ c b (mem_keep hb)).trans (args12 m ρ c b hb)
theorem args14 (b : Ref sig .tc) (hb : b ∈ argRefs) : W14 m ρ c (Proc.devRef .tc b) = m ((c : Thread nD τ).loc b) :=
  (reg6_keep m ρ c b (mem_keep hb)).trans (args13 m ρ c b hb)
theorem args15 (b : Ref sig .tc) (hb : b ∈ argRefs) : W15 m ρ c (Proc.devRef .tc b) = m ((c : Thread nD τ).loc b) :=
  (host7_keep m ρ c b (mem_keep hb)).trans (args14 m ρ c b hb)

/-! ## The layer outputs that are read again -/

theorem v20_at5 : W5 m ρ c (Proc.devRef .tc main_v20) = W4 m ρ c (Proc.devRef .tc main_v20) := host2_keep m ρ c _ (by decide)
theorem v20_at7 : W7 m ρ c (Proc.devRef .tc main_v20) = W4 m ρ c (Proc.devRef .tc main_v20) :=
  (host3_keep m ρ c _ (by decide)).trans ((reg2_keep m ρ c _ (by decide)).trans (v20_at5 m ρ c))
theorem v41_at9 : W9 m ρ c (Proc.devRef .tc main_v41) = W8 m ρ c (Proc.devRef .tc main_v41) := host4_keep m ρ c _ (by decide)
theorem v41_at11 : W11 m ρ c (Proc.devRef .tc main_v41) = W8 m ρ c (Proc.devRef .tc main_v41) :=
  (host5_keep m ρ c _ (by decide)).trans ((reg4_keep m ρ c _ (by decide)).trans (v41_at9 m ρ c))
theorem v41_at16 : W16 m ρ c (Proc.devRef .tc main_v41) = W8 m ρ c (Proc.devRef .tc main_v41) :=
  (reg7_keep m ρ c _ (by decide)).trans ((host7_keep m ρ c _ (by decide)).trans ((reg6_keep m ρ c _ (by decide)).trans
    ((host6_keep m ρ c _ (by decide)).trans ((reg5_keep m ρ c _ (by decide) (by decide)).trans (v41_at11 m ρ c)))))
theorem v62_at13 : W13 m ρ c (Proc.devRef .tc main_v62) = W12 m ρ c (Proc.devRef .tc main_v62) := host6_keep m ρ c _ (by decide)
theorem v62_at15 : W15 m ρ c (Proc.devRef .tc main_v62) = W12 m ρ c (Proc.devRef .tc main_v62) :=
  (host7_keep m ρ c _ (by decide)).trans ((reg6_keep m ρ c _ (by decide)).trans (v62_at13 m ρ c))

/-! ## The values, segment by segment -/

theorem at1_v0 : W1 m ρ c (Proc.devRef .tc main_v0) = (transpose S64x64 [1, 0] (args m c).x2 Facts₀.transposes_S64x64_S64x64_1_0) := by
  show StableHlo.after hostOps0 (W0 m ρ c) (Proc.devRef .tc main_v0) = _
  dsimp only [hostOps0]
  after_results
  rw [args0 m ρ c main_arg2 (by decide)]
  rfl
theorem at1_v1 : W1 m ρ c (Proc.devRef .tc main_v1) = (shapeCast _ (args m c).x3 Facts₀.shapeCasts_S64_S1x64) := by
  show StableHlo.after hostOps0 (W0 m ρ c) (Proc.devRef .tc main_v1) = _
  dsimp only [hostOps0]
  after_results
  rw [args0 m ρ c main_arg3 (by decide)]
  rfl
/-- Region 0's output when it is left. -/
theorem val_v2 : W2 m ρ c (Proc.devRef .tc main_v2) = p1 (args m c) := by
  refine ((W2_arr m ρ c 3).trans (Region0.value (V1 m ρ) c)).trans ?_
  show project (n := 100000) (k := 64) (j := 64) (W1 m ρ c (Proc.devRef .tc main_arg0)) (W1 m ρ c (Proc.devRef .tc main_v0)) (W1 m ρ c (Proc.devRef .tc main_v1)) = _
  rw [args1 m ρ c main_arg0 (by decide), at1_v0 m ρ c, at1_v1 m ρ c]
  rfl

theorem at3_v16 : W3 m ρ c (Proc.devRef .tc main_v16) = s1 (args m c) := by
  show StableHlo.after hostOps1 (W2 m ρ c) (Proc.devRef .tc main_v16) = _
  dsimp only [hostOps1]
  after_results
  rw [val_v2 m ρ c, args2 m ρ c main_arg1 (by decide)]
  rfl
theorem at3_v17 : W3 m ρ c (Proc.devRef .tc main_v17) = (transpose S64x128 [1, 0] (args m c).x4 Facts₀.transposes_S128x64_S64x128_1_0) := by
  show StableHlo.after hostOps1 (W2 m ρ c) (Proc.devRef .tc main_v17) = _
  dsimp only [hostOps1]
  after_results
  rw [args2 m ρ c main_arg4 (by decide)]
  rfl
theorem at3_v18 : W3 m ρ c (Proc.devRef .tc main_v18) = (transpose S64x128 [1, 0] (args m c).x6 Facts₀.transposes_S128x64_S64x128_1_0) := by
  show StableHlo.after hostOps1 (W2 m ρ c) (Proc.devRef .tc main_v18) = _
  dsimp only [hostOps1]
  after_results
  rw [args2 m ρ c main_arg6 (by decide)]
  rfl
theorem at3_v19 : W3 m ρ c (Proc.devRef .tc main_v19) = (shapeCast _ (args m c).x5 Facts₀.shapeCasts_S128_S1x128) := by
  show StableHlo.after hostOps1 (W2 m ρ c) (Proc.devRef .tc main_v19) = _
  dsimp only [hostOps1]
  after_results
  rw [args2 m ρ c main_arg5 (by decide)]
  rfl
/-- Region 1's output when it is left. -/
theorem val_v20 : W4 m ρ c (Proc.devRef .tc main_v20) = h1 (args m c) := by
  refine ((W4_arr m ρ c 5).trans (Region1.value (V3 m ρ) c)).trans ?_
  show combineRelu (n := 100000) (k := 64) (j := 128) (W3 m ρ c (Proc.devRef .tc main_v16)) (W3 m ρ c (Proc.devRef .tc main_arg0)) (W3 m ρ c (Proc.devRef .tc main_v17)) (W3 m ρ c (Proc.devRef .tc main_v19)) (W3 m ρ c (Proc.devRef .tc main_v18)) = _
  rw [at3_v16 m ρ c, args3 m ρ c main_arg0 (by decide), at3_v17 m ρ c, at3_v19 m ρ c, at3_v18 m ρ c]
  rfl

theorem at5_v21 : W5 m ρ c (Proc.devRef .tc main_v21) = (transpose S128x128 [1, 0] (args m c).x7 Facts₀.transposes_S128x128_S128x128_1_0) := by
  show StableHlo.after hostOps2 (W4 m ρ c) (Proc.devRef .tc main_v21) = _
  dsimp only [hostOps2]
  after_results
  rw [args4 m ρ c main_arg7 (by decide)]
  rfl
theorem at5_v22 : W5 m ρ c (Proc.devRef .tc main_v22) = (shapeCast _ (args m c).x8 Facts₀.shapeCasts_S128_S1x128) := by
  show StableHlo.after hostOps2 (W4 m ρ c) (Proc.devRef .tc main_v22) = _
  dsimp only [hostOps2]
  after_results
  rw [args4 m ρ c main_arg8 (by decide)]
  rfl
/-- Region 2's output when it is left. -/
theorem val_v23 : W6 m ρ c (Proc.devRef .tc main_v23) = p2 (args m c) := by
  refine ((W6_arr m ρ c 3).trans (Region2.value (V5 m ρ) c)).trans ?_
  show project (n := 100000) (k := 128) (j := 128) (W5 m ρ c (Proc.devRef .tc main_v20)) (W5 m ρ c (Proc.devRef .tc main_v21)) (W5 m ρ c (Proc.devRef .tc main_v22)) = _
  rw [v20_at5 m ρ c, val_v20 m ρ c, at5_v21 m ρ c, at5_v22 m ρ c]
  rfl

theorem at7_v37 : W7 m ρ c (Proc.devRef .tc main_v37) = s2 (args m c) := by
  show StableHlo.after hostOps3 (W6 m ρ c) (Proc.devRef .tc main_v37) = _
  dsimp only [hostOps3]
  after_results
  rw [val_v23 m ρ c, args6 m ρ c main_arg1 (by decide)]
  rfl
theorem at7_v38 : W7 m ρ c (Proc.devRef .tc main_v38) = (transpose S128x32 [1, 0] (args m c).x9 Facts₀.transposes_S32x128_S128x32_1_0) := by
  show StableHlo.after hostOps3 (W6 m ρ c) (Proc.devRef .tc main_v38) = _
  dsimp only [hostOps3]
  after_results
  rw [args6 m ρ c main_arg9 (by decide)]
  rfl
theorem at7_v39 : W7 m ρ c (Proc.devRef .tc main_v39) = (transpose S128x32 [1, 0] (args m c).x11 Facts₀.transposes_S32x128_S128x32_1_0) := by
  show StableHlo.after hostOps3 (W6 m ρ c) (Proc.devRef .tc main_v39) = _
  dsimp only [hostOps3]
  after_results
  rw [args6 m ρ c main_arg11 (by decide)]
  rfl
theorem at7_v40 : W7 m ρ c (Proc.devRef .tc main_v40) = (shapeCast _ (args m c).x10 Facts₀.shapeCasts_S32_S1x32) := by
  show StableHlo.after hostOps3 (W6 m ρ c) (Proc.devRef .tc main_v40) = _
  dsimp only [hostOps3]
  after_results
  rw [args6 m ρ c main_arg10 (by decide)]
  rfl
/-- Region 3's output when it is left. -/
theorem val_v41 : W8 m ρ c (Proc.devRef .tc main_v41) = z (args m c) := by
  refine ((W8_arr m ρ c 5).trans (Region3.value (V7 m ρ) c)).trans ?_
  show combine (n := 100000) (k := 128) (j := 32) (W7 m ρ c (Proc.devRef .tc main_v37)) (W7 m ρ c (Proc.devRef .tc main_v20)) (W7 m ρ c (Proc.devRef .tc main_v38)) (W7 m ρ c (Proc.devRef .tc main_v40)) (W7 m ρ c (Proc.devRef .tc main_v39)) = _
  rw [at7_v37 m ρ c, v20_at7 m ρ c, val_v20 m ρ c, at7_v38 m ρ c, at7_v40 m ρ c, at7_v39 m ρ c]
  rfl

theorem at9_v42 : W9 m ρ c (Proc.devRef .tc main_v42) = (transpose S32x32 [1, 0] (args m c).x12 Facts₀.transposes_S32x32_S32x32_1_0) := by
  show StableHlo.after hostOps4 (W8 m ρ c) (Proc.devRef .tc main_v42) = _
  dsimp only [hostOps4]
  after_results
  rw [args8 m ρ c main_arg12 (by decide)]
  rfl
theorem at9_v43 : W9 m ρ c (Proc.devRef .tc main_v43) = (shapeCast _ (args m c).x13 Facts₀.shapeCasts_S32_S1x32) := by
  show StableHlo.after hostOps4 (W8 m ρ c) (Proc.devRef .tc main_v43) = _
  dsimp only [hostOps4]
  after_results
  rw [args8 m ρ c main_arg13 (by decide)]
  rfl
/-- Region 4's output when it is left. -/
theorem val_v44 : W10 m ρ c (Proc.devRef .tc main_v44) = p3 (args m c) := by
  refine ((W10_arr m ρ c 3).trans (Region4.value (V9 m ρ) c)).trans ?_
  show project (n := 100000) (k := 32) (j := 32) (W9 m ρ c (Proc.devRef .tc main_v41)) (W9 m ρ c (Proc.devRef .tc main_v42)) (W9 m ρ c (Proc.devRef .tc main_v43)) = _
  rw [v41_at9 m ρ c, val_v41 m ρ c, at9_v42 m ρ c, at9_v43 m ρ c]
  rfl

theorem at11_v58 : W11 m ρ c (Proc.devRef .tc main_v58) = s3 (args m c) := by
  show StableHlo.after hostOps5 (W10 m ρ c) (Proc.devRef .tc main_v58) = _
  dsimp only [hostOps5]
  after_results
  rw [val_v44 m ρ c, args10 m ρ c main_arg1 (by decide)]
  rfl
theorem at11_v59 : W11 m ρ c (Proc.devRef .tc main_v59) = (transpose S32x128 [1, 0] (args m c).x14 Facts₀.transposes_S128x32_S32x128_1_0) := by
  show StableHlo.after hostOps5 (W10 m ρ c) (Proc.devRef .tc main_v59) = _
  dsimp only [hostOps5]
  after_results
  rw [args10 m ρ c main_arg14 (by decide)]
  rfl
theorem at11_v60 : W11 m ρ c (Proc.devRef .tc main_v60) = (transpose S32x128 [1, 0] (args m c).x16 Facts₀.transposes_S128x32_S32x128_1_0) := by
  show StableHlo.after hostOps5 (W10 m ρ c) (Proc.devRef .tc main_v60) = _
  dsimp only [hostOps5]
  after_results
  rw [args10 m ρ c main_arg16 (by decide)]
  rfl
theorem at11_v61 : W11 m ρ c (Proc.devRef .tc main_v61) = (shapeCast _ (args m c).x15 Facts₀.shapeCasts_S128_S1x128) := by
  show StableHlo.after hostOps5 (W10 m ρ c) (Proc.devRef .tc main_v61) = _
  dsimp only [hostOps5]
  after_results
  rw [args10 m ρ c main_arg15 (by decide)]
  rfl
/-- Region 5's output when it is left. -/
theorem val_v62 : W12 m ρ c (Proc.devRef .tc main_v62) = h3 (args m c) := by
  refine ((W12_arr m ρ c 5).trans (Region5.value (V11 m ρ) c)).trans ?_
  show combineRelu (n := 100000) (k := 32) (j := 128) (W11 m ρ c (Proc.devRef .tc main_v58)) (W11 m ρ c (Proc.devRef .tc main_v41)) (W11 m ρ c (Proc.devRef .tc main_v59)) (W11 m ρ c (Proc.devRef .tc main_v61)) (W11 m ρ c (Proc.devRef .tc main_v60)) = _
  rw [at11_v58 m ρ c, v41_at11 m ρ c, val_v41 m ρ c, at11_v59 m ρ c, at11_v61 m ρ c, at11_v60 m ρ c]
  rfl

theorem at13_v63 : W13 m ρ c (Proc.devRef .tc main_v63) = (transpose S128x128 [1, 0] (args m c).x17 Facts₀.transposes_S128x128_S128x128_1_0) := by
  show StableHlo.after hostOps6 (W12 m ρ c) (Proc.devRef .tc main_v63) = _
  dsimp only [hostOps6]
  after_results
  rw [args12 m ρ c main_arg17 (by decide)]
  rfl
theorem at13_v64 : W13 m ρ c (Proc.devRef .tc main_v64) = (shapeCast _ (args m c).x18 Facts₀.shapeCasts_S128_S1x128) := by
  show StableHlo.after hostOps6 (W12 m ρ c) (Proc.devRef .tc main_v64) = _
  dsimp only [hostOps6]
  after_results
  rw [args12 m ρ c main_arg18 (by decide)]
  rfl
/-- Region 6's output when it is left. -/
theorem val_v65 : W14 m ρ c (Proc.devRef .tc main_v65) = p4 (args m c) := by
  refine ((W14_arr m ρ c 3).trans (Region6.value (V13 m ρ) c)).trans ?_
  show project (n := 100000) (k := 128) (j := 128) (W13 m ρ c (Proc.devRef .tc main_v62)) (W13 m ρ c (Proc.devRef .tc main_v63)) (W13 m ρ c (Proc.devRef .tc main_v64)) = _
  rw [v62_at13 m ρ c, val_v62 m ρ c, at13_v63 m ρ c, at13_v64 m ρ c]
  rfl

theorem at15_v79 : W15 m ρ c (Proc.devRef .tc main_v79) = s4 (args m c) := by
  show StableHlo.after hostOps7 (W14 m ρ c) (Proc.devRef .tc main_v79) = _
  dsimp only [hostOps7]
  after_results
  rw [val_v65 m ρ c, args14 m ρ c main_arg1 (by decide)]
  rfl
theorem at15_v80 : W15 m ρ c (Proc.devRef .tc main_v80) = (transpose S128x64 [1, 0] (args m c).x19 Facts₀.transposes_S64x128_S128x64_1_0) := by
  show StableHlo.after hostOps7 (W14 m ρ c) (Proc.devRef .tc main_v80) = _
  dsimp only [hostOps7]
  after_results
  rw [args14 m ρ c main_arg19 (by decide)]
  rfl
theorem at15_v81 : W15 m ρ c (Proc.devRef .tc main_v81) = (transpose S128x64 [1, 0] (args m c).x21 Facts₀.transposes_S64x128_S128x64_1_0) := by
  show StableHlo.after hostOps7 (W14 m ρ c) (Proc.devRef .tc main_v81) = _
  dsimp only [hostOps7]
  after_results
  rw [args14 m ρ c main_arg21 (by decide)]
  rfl
theorem at15_v82 : W15 m ρ c (Proc.devRef .tc main_v82) = (shapeCast _ (args m c).x20 Facts₀.shapeCasts_S64_S1x64) := by
  show StableHlo.after hostOps7 (W14 m ρ c) (Proc.devRef .tc main_v82) = _
  dsimp only [hostOps7]
  after_results
  rw [args14 m ρ c main_arg20 (by decide)]
  rfl
/-- Region 7's output when it is left. -/
theorem val_v83 : W16 m ρ c (Proc.devRef .tc main_v83) = xrec (args m c) := by
  refine ((W16_arr m ρ c 5).trans (Region7.value (V15 m ρ) c)).trans ?_
  show combine (n := 100000) (k := 128) (j := 64) (W15 m ρ c (Proc.devRef .tc main_v79)) (W15 m ρ c (Proc.devRef .tc main_v62)) (W15 m ρ c (Proc.devRef .tc main_v80)) (W15 m ρ c (Proc.devRef .tc main_v82)) (W15 m ρ c (Proc.devRef .tc main_v81)) = _
  rw [at15_v79 m ρ c, v62_at15 m ρ c, val_v62 m ρ c, at15_v80 m ρ c, at15_v82 m ρ c, at15_v81 m ρ c]
  rfl

/-! ## The two results at the last boundary -/

theorem result0 : W16 m ρ c (Proc.devRef .tc main_v83) = xrec (args m c) := val_v83 m ρ c

theorem result1 : W16 m ρ c (Proc.devRef .tc main_v41) = z (args m c) := (v41_at16 m ρ c).trans (val_v41 m ρ c)

end Cert.KernelIdeal.Fold

end
-- ==== Proof.RefBridge.lean ====
/-
  The reference program's stages are the chain's functions.

  The reference computes each layer with whole-array host operations: a product of the layer's input with the
  transposed weight, the bias broadcast over the rows, a sum, and for three of the four dense stages per two layers
  a maximum with zero; between them the same gather and accumulating scatter as the kernel program.  Read at row `r`,
  column `c`, a host product is the sum over `q` of `input (r, q) · weight (q, c)` and the broadcast bias is the
  bias at `c`; a bias vector of length `j` read through its cast to one row of length `j` is the same entry.  So every stage of the reference,
  as a function of the argument arrays, is the corresponding function of `Chain`, stage by stage and using the
  stage before it.
-/
import proofs.«177831_j51780125720795_1_alg».proof.Proof.Gen.ReferenceIdeal.Read
import proofs.«177831_j51780125720795_1_alg».proof.Proof.Chain
import Idealize.ShloMosaic.Lib.ValueLayout

set_option maxRecDepth 8192

noncomputable section

namespace Cert.ReferenceIdeal.Bridge

open Cert.ReferenceIdeal Cert.ReferenceIdeal.Read Idealize.ShloMosaic Idealize.ShloMosaic.ValueIdx Cert.Sage

variable (A : Cert.KernelIdeal.Chain.Args)

/-- A project stage: `max (input · weightᵀ + bias) 0`. -/
theorem ref_p1 : val_main_v5 (F := Ideal) A.x0 A.x2 A.x3 = Cert.KernelIdeal.Chain.p1 A := by
  funext i
  obtain ⟨r, c, rfl⟩ : ∃ (r : Fin 100000) (c : Fin 64), i = ix2 r c := ⟨i 0, i 1, eq_ix2 i⟩
  rw [val_main_v5_apply, val_main_v4_apply, val_main_v1_apply, val_main_v3_apply, val_main_v2_apply, val_main_call0_v0_apply, val_main_call0_cst_apply]
  simp only [Ideal.maximumf_def, Ideal.addf_def, Ideal.ofBits_def, Ideal.ofBits_zero_f32]
  unfold Cert.KernelIdeal.Chain.p1
  rw [project_ix2]
  unfold prodAt
  rw [shapeCast_a_1a_apply]
  refine congrArg (fun u : EReal => max u 0) (congrArg₂ (fun u v : EReal => u + v) (Finset.sum_congr rfl fun k _ => ?_) ?_)
  · have el : lidx_main_v1 (ix2 r c) k = ix2 r k := funext fun a => Fin.ext (by match a with | ⟨0, _⟩ => rfl | ⟨1, _⟩ => rfl)
    have er : ridx_main_v1 (ix2 r c) k = ix2 k c := funext fun a => Fin.ext (by match a with | ⟨0, _⟩ => rfl | ⟨1, _⟩ => rfl)
    rw [el, er]
    rfl
  · exact congrArg A.x3 (funext fun a => Fin.ext (by match a with | ⟨0, _⟩ => rfl))

/-- The neighbour sums: the same host operations applied to the same projected features. -/
theorem ref_s1 : val_main_v19 (F := Ideal) A.x0 A.x1 A.x2 A.x3 = Cert.KernelIdeal.Chain.s1 A := by
  have h : val_main_v19 (F := Ideal) A.x0 A.x1 A.x2 A.x3 = Cert.KernelIdeal.Chain.agg64 (val_main_v5 (F := Ideal) A.x0 A.x2 A.x3) A.x1 := rfl
  rw [h, ref_p1 A]
  rfl

/-- A combine stage: `(sums · wlᵀ + bias) + input · wrᵀ`, then `max · 0`. -/
theorem ref_h1 : val_main_v28 (F := Ideal) A.x0 A.x1 A.x2 A.x3 A.x4 A.x5 A.x6 = Cert.KernelIdeal.Chain.h1 A := by
  funext i
  obtain ⟨r, c, rfl⟩ : ∃ (r : Fin 100000) (c : Fin 128), i = ix2 r c := ⟨i 0, i 1, eq_ix2 i⟩
  rw [val_main_v28_apply, val_main_v27_apply, val_main_v24_apply, val_main_v21_apply, val_main_v23_apply, val_main_v22_apply, val_main_v26_apply, val_main_call1_v0_apply, val_main_call1_cst_apply]
  rw [ref_s1 A]
  simp only [Ideal.maximumf_def, Ideal.addf_def, Ideal.ofBits_def, Ideal.ofBits_zero_f32]
  unfold Cert.KernelIdeal.Chain.h1
  rw [combineRelu_ix2]
  unfold prodAt
  rw [shapeCast_a_1a_apply]
  refine congrArg (fun u : EReal => max u 0) (congrArg₂ (fun u v : EReal => u + v) (congrArg₂ (fun u v : EReal => u + v) (Finset.sum_congr rfl fun k _ => ?_) ?_) (Finset.sum_congr rfl fun k _ => ?_))
  · have el : lidx_main_v21 (ix2 r c) k = ix2 r k := funext fun a => Fin.ext (by match a with | ⟨0, _⟩ => rfl | ⟨1, _⟩ => rfl)
    have er : ridx_main_v21 (ix2 r c) k = ix2 k c := funext fun a => Fin.ext (by match a with | ⟨0, _⟩ => rfl | ⟨1, _⟩ => rfl)
    rw [el, er]
    rfl
  · exact congrArg A.x5 (funext fun a => Fin.ext (by match a with | ⟨0, _⟩ => rfl))
  · have el : lidx_main_v26 (ix2 r c) k = ix2 r k := funext fun a => Fin.ext (by match a with | ⟨0, _⟩ => rfl | ⟨1, _⟩ => rfl)
    have er : ridx_main_v26 (ix2 r c) k = ix2 k c := funext fun a => Fin.ext (by match a with | ⟨0, _⟩ => rfl | ⟨1, _⟩ => rfl)
    rw [el, er]
    rfl

/-- A project stage: `max (input · weightᵀ + bias) 0`. -/
theorem ref_p2 : val_main_v34 (F := Ideal) A.x0 A.x1 A.x2 A.x3 A.x4 A.x5 A.x6 A.x7 A.x8 = Cert.KernelIdeal.Chain.p2 A := by
  funext i
  obtain ⟨r, c, rfl⟩ : ∃ (r : Fin 100000) (c : Fin 128), i = ix2 r c := ⟨i 0, i 1, eq_ix2 i⟩
  rw [val_main_v34_apply, val_main_v33_apply, val_main_v30_apply, val_main_v32_apply, val_main_v31_apply, val_main_call2_v0_apply, val_main_call2_cst_apply]
  rw [ref_h1 A]
  simp only [Ideal.maximumf_def, Ideal.addf_def, Ideal.ofBits_def, Ideal.ofBits_zero_f32]
  unfold Cert.KernelIdeal.Chain.p2
  rw [project_ix2]
  unfold prodAt
  rw [shapeCast_a_1a_apply]
  refine congrArg (fun u : EReal => max u 0) (congrArg₂ (fun u v : EReal => u + v) (Finset.sum_congr rfl fun k _ => ?_) ?_)
  · have el : lidx_main_v30 (ix2 r c) k = ix2 r k := funext fun a => Fin.ext (by match a with | ⟨0, _⟩ => rfl | ⟨1, _⟩ => rfl)
    have er : ridx_main_v30 (ix2 r c) k = ix2 k c := funext fun a => Fin.ext (by match a with | ⟨0, _⟩ => rfl | ⟨1, _⟩ => rfl)
    rw [el, er]
    rfl
  · exact congrArg A.x8 (funext fun a => Fin.ext (by match a with | ⟨0, _⟩ => rfl))

/-- The neighbour sums: the same host operations applied to the same projected features. -/
theorem ref_s2 : val_main_v48 (F := Ideal) A.x0 A.x1 A.x2 A.x3 A.x4 A.x5 A.x6 A.x7 A.x8 = Cert.KernelIdeal.Chain.s2 A := by
  have h : val_main_v48 (F := Ideal) A.x0 A.x1 A.x2 A.x3 A.x4 A.x5 A.x6 A.x7 A.x8 = Cert.KernelIdeal.Chain.agg128 (val_main_v34 (F := Ideal) A.x0 A.x1 A.x2 A.x3 A.x4 A.x5 A.x6 A.x7 A.x8) A.x1 := rfl
  rw [h, ref_p2 A]
  rfl

/-- A combine stage: `(sums · wlᵀ + bias) + input · wrᵀ`. -/
theorem ref_z : val_main_v56 (F := Ideal) A.x0 A.x1 A.x2 A.x3 A.x4 A.x5 A.x6 A.x7 A.x8 A.x9 A.x10 A.x11 = Cert.KernelIdeal.Chain.z A := by
  funext i
  obtain ⟨r, c, rfl⟩ : ∃ (r : Fin 100000) (c : Fin 32), i = ix2 r c := ⟨i 0, i 1, eq_ix2 i⟩
  rw [val_main_v56_apply, val_main_v53_apply, val_main_v50_apply, val_main_v52_apply, val_main_v51_apply, val_main_v55_apply]
  rw [ref_s2 A, ref_h1 A]
  simp only [Ideal.maximumf_def, Ideal.addf_def, Ideal.ofBits_def, Ideal.ofBits_zero_f32]
  unfold Cert.KernelIdeal.Chain.z
  rw [combine_ix2]
  unfold prodAt
  rw [shapeCast_a_1a_apply]
  refine congrArg₂ (fun u v : EReal => u + v) (congrArg₂ (fun u v : EReal => u + v) (Finset.sum_congr rfl fun k _ => ?_) ?_) (Finset.sum_congr rfl fun k _ => ?_)
  · have el : lidx_main_v50 (ix2 r c) k = ix2 r k := funext fun a => Fin.ext (by match a with | ⟨0, _⟩ => rfl | ⟨1, _⟩ => rfl)
    have er : ridx_main_v50 (ix2 r c) k = ix2 k c := funext fun a => Fin.ext (by match a with | ⟨0, _⟩ => rfl | ⟨1, _⟩ => rfl)
    rw [el, er]
    rfl
  · exact congrArg A.x10 (funext fun a => Fin.ext (by match a with | ⟨0, _⟩ => rfl))
  · have el : lidx_main_v55 (ix2 r c) k = ix2 r k := funext fun a => Fin.ext (by match a with | ⟨0, _⟩ => rfl | ⟨1, _⟩ => rfl)
    have er : ridx_main_v55 (ix2 r c) k = ix2 k c := funext fun a => Fin.ext (by match a with | ⟨0, _⟩ => rfl | ⟨1, _⟩ => rfl)
    rw [el, er]
    rfl

/-- A project stage: `max (input · weightᵀ + bias) 0`. -/
theorem ref_p3 : val_main_v62 (F := Ideal) A.x0 A.x1 A.x2 A.x3 A.x4 A.x5 A.x6 A.x7 A.x8 A.x9 A.x10 A.x11 A.x12 A.x13 = Cert.KernelIdeal.Chain.p3 A := by
  funext i
  obtain ⟨r, c, rfl⟩ : ∃ (r : Fin 100000) (c : Fin 32), i = ix2 r c := ⟨i 0, i 1, eq_ix2 i⟩
  rw [val_main_v62_apply, val_main_v61_apply, val_main_v58_apply, val_main_v60_apply, val_main_v59_apply, val_main_call3_v0_apply, val_main_call3_cst_apply]
  rw [ref_z A]
  simp only [Ideal.maximumf_def, Ideal.addf_def, Ideal.ofBits_def, Ideal.ofBits_zero_f32]
  unfold Cert.KernelIdeal.Chain.p3
  rw [project_ix2]
  unfold prodAt
  rw [shapeCast_a_1a_apply]
  refine congrArg (fun u : EReal => max u 0) (congrArg₂ (fun u v : EReal => u + v) (Finset.sum_congr rfl fun k _ => ?_) ?_)
  · have el : lidx_main_v58 (ix2 r c) k = ix2 r k := funext fun a => Fin.ext (by match a with | ⟨0, _⟩ => rfl | ⟨1, _⟩ => rfl)
    have er : ridx_main_v58 (ix2 r c) k = ix2 k c := funext fun a => Fin.ext (by match a with | ⟨0, _⟩ => rfl | ⟨1, _⟩ => rfl)
    rw [el, er]
    rfl
  · exact congrArg A.x13 (funext fun a => Fin.ext (by match a with | ⟨0, _⟩ => rfl))

/-- The neighbour sums: the same host operations applied to the same projected features. -/
theorem ref_s3 : val_main_v76 (F := Ideal) A.x0 A.x1 A.x2 A.x3 A.x4 A.x5 A.x6 A.x7 A.x8 A.x9 A.x10 A.x11 A.x12 A.x13 = Cert.KernelIdeal.Chain.s3 A := by
  have h : val_main_v76 (F := Ideal) A.x0 A.x1 A.x2 A.x3 A.x4 A.x5 A.x6 A.x7 A.x8 A.x9 A.x10 A.x11 A.x12 A.x13 = Cert.KernelIdeal.Chain.agg32 (val_main_v62 (F := Ideal) A.x0 A.x1 A.x2 A.x3 A.x4 A.x5 A.x6 A.x7 A.x8 A.x9 A.x10 A.x11 A.x12 A.x13) A.x1 := rfl
  rw [h, ref_p3 A]
  rfl

/-- A combine stage: `(sums · wlᵀ + bias) + input · wrᵀ`, then `max · 0`. -/
theorem ref_h3 : val_main_v85 (F := Ideal) A.x0 A.x1 A.x2 A.x3 A.x4 A.x5 A.x6 A.x7 A.x8 A.x9 A.x10 A.x11 A.x12 A.x13 A.x14 A.x15 A.x16 = Cert.KernelIdeal.Chain.h3 A := by
  funext i
  obtain ⟨r, c, rfl⟩ : ∃ (r : Fin 100000) (c : Fin 128), i = ix2 r c := ⟨i 0, i 1, eq_ix2 i⟩
  rw [val_main_v85_apply, val_main_v84_apply, val_main_v81_apply, val_main_v78_apply, val_main_v80_apply, val_main_v79_apply, val_main_v83_apply, val_main_call4_v0_apply, val_main_call4_cst_apply]
  rw [ref_s3 A, ref_z A]
  simp only [Ideal.maximumf_def, Ideal.addf_def, Ideal.ofBits_def, Ideal.ofBits_zero_f32]
  unfold Cert.KernelIdeal.Chain.h3
  rw [combineRelu_ix2]
  unfold prodAt
  rw [shapeCast_a_1a_apply]
  refine congrArg (fun u : EReal => max u 0) (congrArg₂ (fun u v : EReal => u + v) (congrArg₂ (fun u v : EReal => u + v) (Finset.sum_congr rfl fun k _ => ?_) ?_) (Finset.sum_congr rfl fun k _ => ?_))
  · have el : lidx_main_v78 (ix2 r c) k = ix2 r k := funext fun a => Fin.ext (by match a with | ⟨0, _⟩ => rfl | ⟨1, _⟩ => rfl)
    have er : ridx_main_v78 (ix2 r c) k = ix2 k c := funext fun a => Fin.ext (by match a with | ⟨0, _⟩ => rfl | ⟨1, _⟩ => rfl)
    rw [el, er]
    rfl
  · exact congrArg A.x15 (funext fun a => Fin.ext (by match a with | ⟨0, _⟩ => rfl))
  · have el : lidx_main_v83 (ix2 r c) k = ix2 r k := funext fun a => Fin.ext (by match a with | ⟨0, _⟩ => rfl | ⟨1, _⟩ => rfl)
    have er : ridx_main_v83 (ix2 r c) k = ix2 k c := funext fun a => Fin.ext (by match a with | ⟨0, _⟩ => rfl | ⟨1, _⟩ => rfl)
    rw [el, er]
    rfl

/-- A project stage: `max (input · weightᵀ + bias) 0`. -/
theorem ref_p4 : val_main_v91 (F := Ideal) A.x0 A.x1 A.x2 A.x3 A.x4 A.x5 A.x6 A.x7 A.x8 A.x9 A.x10 A.x11 A.x12 A.x13 A.x14 A.x15 A.x16 A.x17 A.x18 = Cert.KernelIdeal.Chain.p4 A := by
  funext i
  obtain ⟨r, c, rfl⟩ : ∃ (r : Fin 100000) (c : Fin 128), i = ix2 r c := ⟨i 0, i 1, eq_ix2 i⟩
  rw [val_main_v91_apply, val_main_v90_apply, val_main_v87_apply, val_main_v89_apply, val_main_v88_apply, val_main_call5_v0_apply, val_main_call5_cst_apply]
  rw [ref_h3 A]
  simp only [Ideal.maximumf_def, Ideal.addf_def, Ideal.ofBits_def, Ideal.ofBits_zero_f32]
  unfold Cert.KernelIdeal.Chain.p4
  rw [project_ix2]
  unfold prodAt
  rw [shapeCast_a_1a_apply]
  refine congrArg (fun u : EReal => max u 0) (congrArg₂ (fun u v : EReal => u + v) (Finset.sum_congr rfl fun k _ => ?_) ?_)
  · have el : lidx_main_v87 (ix2 r c) k = ix2 r k := funext fun a => Fin.ext (by match a with | ⟨0, _⟩ => rfl | ⟨1, _⟩ => rfl)
    have er : ridx_main_v87 (ix2 r c) k = ix2 k c := funext fun a => Fin.ext (by match a with | ⟨0, _⟩ => rfl | ⟨1, _⟩ => rfl)
    rw [el, er]
    rfl
  · exact congrArg A.x18 (funext fun a => Fin.ext (by match a with | ⟨0, _⟩ => rfl))

/-- The neighbour sums: the same host operations applied to the same projected features. -/
theorem ref_s4 : val_main_v105 (F := Ideal) A.x0 A.x1 A.x2 A.x3 A.x4 A.x5 A.x6 A.x7 A.x8 A.x9 A.x10 A.x11 A.x12 A.x13 A.x14 A.x15 A.x16 A.x17 A.x18 = Cert.KernelIdeal.Chain.s4 A := by
  have h : val_main_v105 (F := Ideal) A.x0 A.x1 A.x2 A.x3 A.x4 A.x5 A.x6 A.x7 A.x8 A.x9 A.x10 A.x11 A.x12 A.x13 A.x14 A.x15 A.x16 A.x17 A.x18 = Cert.KernelIdeal.Chain.agg128 (val_main_v91 (F := Ideal) A.x0 A.x1 A.x2 A.x3 A.x4 A.x5 A.x6 A.x7 A.x8 A.x9 A.x10 A.x11 A.x12 A.x13 A.x14 A.x15 A.x16 A.x17 A.x18) A.x1 := rfl
  rw [h, ref_p4 A]
  rfl

/-- A combine stage: `(sums · wlᵀ + bias) + input · wrᵀ`. -/
theorem ref_xrec : val_main_v113 (F := Ideal) A.x0 A.x1 A.x2 A.x3 A.x4 A.x5 A.x6 A.x7 A.x8 A.x9 A.x10 A.x11 A.x12 A.x13 A.x14 A.x15 A.x16 A.x17 A.x18 A.x19 A.x20 A.x21 = Cert.KernelIdeal.Chain.xrec A := by
  funext i
  obtain ⟨r, c, rfl⟩ : ∃ (r : Fin 100000) (c : Fin 64), i = ix2 r c := ⟨i 0, i 1, eq_ix2 i⟩
  rw [val_main_v113_apply, val_main_v110_apply, val_main_v107_apply, val_main_v109_apply, val_main_v108_apply, val_main_v112_apply]
  rw [ref_s4 A, ref_h3 A]
  simp only [Ideal.maximumf_def, Ideal.addf_def, Ideal.ofBits_def, Ideal.ofBits_zero_f32]
  unfold Cert.KernelIdeal.Chain.xrec
  rw [combine_ix2]
  unfold prodAt
  rw [shapeCast_a_1a_apply]
  refine congrArg₂ (fun u v : EReal => u + v) (congrArg₂ (fun u v : EReal => u + v) (Finset.sum_congr rfl fun k _ => ?_) ?_) (Finset.sum_congr rfl fun k _ => ?_)
  · have el : lidx_main_v107 (ix2 r c) k = ix2 r k := funext fun a => Fin.ext (by match a with | ⟨0, _⟩ => rfl | ⟨1, _⟩ => rfl)
    have er : ridx_main_v107 (ix2 r c) k = ix2 k c := funext fun a => Fin.ext (by match a with | ⟨0, _⟩ => rfl | ⟨1, _⟩ => rfl)
    rw [el, er]
    rfl
  · exact congrArg A.x20 (funext fun a => Fin.ext (by match a with | ⟨0, _⟩ => rfl))
  · have el : lidx_main_v112 (ix2 r c) k = ix2 r k := funext fun a => Fin.ext (by match a with | ⟨0, _⟩ => rfl | ⟨1, _⟩ => rfl)
    have er : ridx_main_v112 (ix2 r c) k = ix2 k c := funext fun a => Fin.ext (by match a with | ⟨0, _⟩ => rfl | ⟨1, _⟩ => rfl)
    rw [el, er]
    rfl

end Cert.ReferenceIdeal.Bridge

end
-- ==== Proof.lean ====
/-
  The certificate of a four-layer graph autoencoder whose dense stages run as row-tiled kernels.

  Each layer of the network projects the node features (`max (x · Wpᵀ + bp) 0`), sums the projected rows over the
  incoming edges, and combines the sums with the layer's input (`(sums · Wlᵀ + bl) + x · Wrᵀ`, after the first and the
  third layer followed by `max · 0`).  The kernel program computes the eight dense stages in eight pipelined
  regions of twenty row blocks each, with the operands of the products narrowed to sixteen bits, and leaves the
  gather and the accumulating scatter to the host; the reference computes everything with whole-array host
  operations.  On extended reals the narrowing is the identity and a product into a zero accumulator is the plain sum, so
  each region's output array is the stage of the arrays it found (`Region0` … `Region7` over `Payloads`), the buffer
  contents folded through the sixteen segments give both results as the chain's functions `xrec` and `z` of the
  argument arrays (`Fold`, over the run `KernelRun` that keeps every buffer), and the reference's stages are the same
  functions (`RefBridge`).  No algebraic law beyond reading a product and a broadcast at an index is used, so the
  precondition is never opened.  The idealization rewrote nothing, so `preserves` is trivial; the kernel programs'
  frames are the generated ones and the reference's is its generated run with the results dropped.
-/
import proofs.«177831_j51780125720795_1_alg».proof.Defs
import proofs.«177831_j51780125720795_1_alg».proof.Proof.Gen.Kernel
import proofs.«177831_j51780125720795_1_alg».proof.Proof.Gen.Kernel.Frame
import proofs.«177831_j51780125720795_1_alg».proof.Proof.Gen.KernelIdeal
import proofs.«177831_j51780125720795_1_alg».proof.Proof.Gen.KernelIdeal.Frame
import proofs.«177831_j51780125720795_1_alg».proof.Proof.Gen.ReferenceIdeal
import proofs.«177831_j51780125720795_1_alg».proof.Proof.Gen.Pre_finite_inputs
import proofs.«177831_j51780125720795_1_alg».proof.Proof.Gen.ReferenceIdeal.Read
import proofs.«177831_j51780125720795_1_alg».proof.Proof.KernelRun
import proofs.«177831_j51780125720795_1_alg».proof.Proof.Fold
import proofs.«177831_j51780125720795_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its results at their composed terms and the arguments unchanged; the frame keeps the
    second part. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the fourth layer's output and the second layer's output, as functions of the argument
    arrays: the kernel program by the fold through its segments, the reference by its stages read at an index. -/
theorem algebraic : Cert.algebraic_KernelIdeal_ReferenceIdeal := by
  intro m ρ m' ρ' _ hagree
  refine ⟨fun c => Cert.KernelIdeal.Chain.xrec (Cert.KernelIdeal.Fold.args m c), fun c => Cert.KernelIdeal.Chain.z (Cert.KernelIdeal.Fold.args m c), ?_, ?_⟩
  · refine (θ_run Cert.KernelIdeal.defs _ _).mono (fun r h c => ?_) (Cert.KernelIdeal.Whole.run_all m ρ)
    exact ⟨(h c Cert.KernelIdeal.main_v83 (by decide)).trans (Cert.KernelIdeal.Fold.result0 m ρ c),
      (h c Cert.KernelIdeal.main_v41 (by decide)).trans (Cert.KernelIdeal.Fold.result1 m ρ c),
      (h c Cert.KernelIdeal.main_arg0 (by decide)).trans (Cert.KernelIdeal.Gen.W16_main_arg0 m ρ c),
      (h c Cert.KernelIdeal.main_arg1 (by decide)).trans (Cert.KernelIdeal.Gen.W16_main_arg1 m ρ c),
      (h c Cert.KernelIdeal.main_arg2 (by decide)).trans (Cert.KernelIdeal.Gen.W16_main_arg2 m ρ c),
      (h c Cert.KernelIdeal.main_arg3 (by decide)).trans (Cert.KernelIdeal.Gen.W16_main_arg3 m ρ c),
      (h c Cert.KernelIdeal.main_arg4 (by decide)).trans (Cert.KernelIdeal.Gen.W16_main_arg4 m ρ c),
      (h c Cert.KernelIdeal.main_arg5 (by decide)).trans (Cert.KernelIdeal.Gen.W16_main_arg5 m ρ c),
      (h c Cert.KernelIdeal.main_arg6 (by decide)).trans (Cert.KernelIdeal.Gen.W16_main_arg6 m ρ c),
      (h c Cert.KernelIdeal.main_arg7 (by decide)).trans (Cert.KernelIdeal.Gen.W16_main_arg7 m ρ c),
      (h c Cert.KernelIdeal.main_arg8 (by decide)).trans (Cert.KernelIdeal.Gen.W16_main_arg8 m ρ c),
      (h c Cert.KernelIdeal.main_arg9 (by decide)).trans (Cert.KernelIdeal.Gen.W16_main_arg9 m ρ c),
      (h c Cert.KernelIdeal.main_arg10 (by decide)).trans (Cert.KernelIdeal.Gen.W16_main_arg10 m ρ c),
      (h c Cert.KernelIdeal.main_arg11 (by decide)).trans (Cert.KernelIdeal.Gen.W16_main_arg11 m ρ c),
      (h c Cert.KernelIdeal.main_arg12 (by decide)).trans (Cert.KernelIdeal.Gen.W16_main_arg12 m ρ c),
      (h c Cert.KernelIdeal.main_arg13 (by decide)).trans (Cert.KernelIdeal.Gen.W16_main_arg13 m ρ c),
      (h c Cert.KernelIdeal.main_arg14 (by decide)).trans (Cert.KernelIdeal.Gen.W16_main_arg14 m ρ c),
      (h c Cert.KernelIdeal.main_arg15 (by decide)).trans (Cert.KernelIdeal.Gen.W16_main_arg15 m ρ c),
      (h c Cert.KernelIdeal.main_arg16 (by decide)).trans (Cert.KernelIdeal.Gen.W16_main_arg16 m ρ c),
      (h c Cert.KernelIdeal.main_arg17 (by decide)).trans (Cert.KernelIdeal.Gen.W16_main_arg17 m ρ c),
      (h c Cert.KernelIdeal.main_arg18 (by decide)).trans (Cert.KernelIdeal.Gen.W16_main_arg18 m ρ c),
      (h c Cert.KernelIdeal.main_arg19 (by decide)).trans (Cert.KernelIdeal.Gen.W16_main_arg19 m ρ c),
      (h c Cert.KernelIdeal.main_arg20 (by decide)).trans (Cert.KernelIdeal.Gen.W16_main_arg20 m ρ c),
      (h c Cert.KernelIdeal.main_arg21 (by decide)).trans (Cert.KernelIdeal.Gen.W16_main_arg21 m ρ c)⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19, e20, e21⟩ := hagree c
    refine ⟨(h c).1.trans ?_, (h c).2.1.trans ?_, (h c).2.2⟩
    · rw [Cert.ReferenceIdeal.Read.val_main_v113_eq, e0, e1, e2, e3, e4, e5, e6, e7, e8, e9, e10, e11, e12, e13, e14, e15, e16, e17, e18, e19, e20, e21]
      exact Cert.ReferenceIdeal.Bridge.ref_xrec (Cert.KernelIdeal.Fold.args m c)
    · rw [Cert.ReferenceIdeal.Read.val_main_v56_eq, e0, e1, e2, e3, e4, e5, e6, e7, e8, e9, e10, e11]
      exact Cert.ReferenceIdeal.Bridge.ref_z (Cert.KernelIdeal.Fold.args m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
